-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "fold_c_524288_11863283" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x4096x64 : Shape := ⟨4, ![2, 8, 4096, 64]⟩
abbrev S2x4096x8x64 : Shape := ⟨4, ![2, 4096, 8, 64]⟩
abbrev S_ : Shape := ⟨0, ![]⟩

class Facts : Prop where
  bcast_S_S2x8x4096x64 : S_.BroadcastsInDim S2x8x4096x64 (![] : Fin 0 → Fin S2x8x4096x64.rank)
  reducesTo_S2x8x4096x64_S_d0_1_2_3 : S2x8x4096x64.ReducesTo [0, 1, 2, 3] S_
  h_S_ : 0 < S_.numel
  bcast_S_S2x4096x8x64 : S_.BroadcastsInDim S2x4096x8x64 (![] : Fin 0 → Fin S2x4096x8x64.rank)
  reducesTo_S2x4096x8x64_S_d0_1_2_3 : S2x4096x8x64.ReducesTo [0, 1, 2, 3] S_

variable [Facts]

def fn {F : FTy → Type} [FloatOps F] (main_arg0 : FVec F S2x8x4096x64 .f32) (main_arg1 : FVec F S2x8x4096x64 .f32) (main_arg2 : FVec F S2x4096x8x64 .f32) : IVec S_ 1 :=
  let main_v0 : FVec F S2x8x4096x64 .f32 := Host.absf main_arg0
  let main_cst : FVec F S_ .f32 := constant S_ .f32 0x7F800000#32
  let main_v1 : FVec F S2x8x4096x64 .f32 := broadcastInDim S2x8x4096x64 ![] bcast_S_S2x8x4096x64 main_cst
  let main_v2 : IVec S2x8x4096x64 1 := cmpf .olt main_v0 main_v1
  let main_c : IVec S_ 1 := constantI S_ 1 1#1
  let main_v3 : IVec S_ 1 := (fun x v => Host.reduce IntOp.andi x v reducesTo_S2x8x4096x64_S_d0_1_2_3 h_S_) main_v2 main_c
  let main_v4 : FVec F S2x8x4096x64 .f32 := Host.absf main_arg1
  let main_cst_0 : FVec F S_ .f32 := constant S_ .f32 0x7F800000#32
  let main_v5 : FVec F S2x8x4096x64 .f32 := broadcastInDim S2x8x4096x64 ![] bcast_S_S2x8x4096x64 main_cst_0
  let main_v6 : IVec S2x8x4096x64 1 := cmpf .olt main_v4 main_v5
  let main_c_1 : IVec S_ 1 := constantI S_ 1 1#1
  let main_v7 : IVec S_ 1 := (fun x v => Host.reduce IntOp.andi x v reducesTo_S2x8x4096x64_S_d0_1_2_3 h_S_) main_v6 main_c_1
  let main_v8 : IVec S_ 1 := andi main_v3 main_v7
  let main_v9 : FVec F S2x4096x8x64 .f32 := Host.absf main_arg2
  let main_cst_2 : FVec F S_ .f32 := constant S_ .f32 0x7F800000#32
  let main_v10 : FVec F S2x4096x8x64 .f32 := broadcastInDim S2x4096x8x64 ![] bcast_S_S2x4096x8x64 main_cst_2
  let main_v11 : IVec S2x4096x8x64 1 := cmpf .olt main_v9 main_v10
  let main_c_3 : IVec S_ 1 := constantI S_ 1 1#1
  let main_v12 : IVec S_ 1 := (fun x v => Host.reduce IntOp.andi x v reducesTo_S2x4096x8x64_S_d0_1_2_3 h_S_) main_v11 main_c_3
  let main_v13 : IVec S_ 1 := andi main_v8 main_v12
  main_v13
-- ==== Kernel.lean ====
abbrev S2x8x4096x64 : Shape := ⟨4, ![2, 8, 4096, 64]⟩
abbrev S2x4096x8x64 : Shape := ⟨4, ![2, 4096, 8, 64]⟩
abbrev S16x4096x64 : Shape := ⟨3, ![16, 4096, 64]⟩
abbrev S1x2048x64 : Shape := ⟨3, ![1, 2048, 64]⟩
abbrev S1x1024x64 : Shape := ⟨3, ![1, 1024, 64]⟩
abbrev S2048x1 : Shape := ⟨2, ![2048, 1]⟩
abbrev S2048x64 : Shape := ⟨2, ![2048, 64]⟩
abbrev S1024x64 : Shape := ⟨2, ![1024, 64]⟩
abbrev S2048x1024 : Shape := ⟨2, ![2048, 1024]⟩
abbrev S2048 : Shape := ⟨1, ![2048]⟩

abbrev nBuf : Space → Nat
  | .hbm => 11
  | .vmem => 11
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x4096x8x64, .f32⟩
  | .hbm, ⟨3, _⟩ => ⟨S16x4096x64, .f32⟩
  | .hbm, ⟨4, _⟩ => ⟨S16x4096x64, .f32⟩
  | .hbm, ⟨5, _⟩ => ⟨S16x4096x64, .bf16⟩
  | .hbm, ⟨6, _⟩ => ⟨S2x8x4096x64, .f32⟩
  | .hbm, ⟨7, _⟩ => ⟨S16x4096x64, .f32⟩
  | .hbm, ⟨8, _⟩ => ⟨S16x4096x64, .bf16⟩
  | .hbm, ⟨9, _⟩ => ⟨S16x4096x64, .f32⟩
  | .hbm, ⟨10, _⟩ => ⟨S2x8x4096x64, .f32⟩
  | .local _ .vmem, ⟨0, _⟩ => ⟨S1x2048x64, .f32⟩
  | .local _ .vmem, ⟨1, _⟩ => ⟨S1x2048x64, .f32⟩
  | .local _ .vmem, ⟨2, _⟩ => ⟨S1x1024x64, .bf16⟩
  | .local _ .vmem, ⟨3, _⟩ => ⟨S1x1024x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x2048x64, .f32⟩
  | .local _ .vmem, ⟨7, _⟩ => ⟨S1x2048x64, .f32⟩
  | .local _ .vmem, ⟨8, _⟩ => ⟨S2048x1, .f32⟩
  | .local _ .vmem, ⟨9, _⟩ => ⟨S2048x1, .f32⟩
  | .local _ .vmem, ⟨10, _⟩ => ⟨S2048x64, .f32⟩
  | _, _ => ⟨S2x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_25 : BitVec 32 := 0#32
  let v44 : BitVec 1 := Scalar.cmpi .ne v43 c0_i32_25
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x8x4096x64_S16x4096x64 : S2x8x4096x64.ShapeCasts S16x4096x64
  bitsLt_bf16_f32 : FTy.bits .bf16 < FTy.bits .f32
  transposes_S2x4096x8x64_S2x8x4096x64_0_2_1_3 : S2x4096x8x64.Transposes [0, 2, 1, 3] S2x8x4096x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S2048x1024_S2048 : S2048x1024.Reduces [1] S2048
  shapeCasts_S2048_S2048x1 : S2048.ShapeCasts S2048x1
  broadcasts_S2048x1_S2048x1024 : S2048x1.Broadcasts S2048x1024
  broadcasts_S2048x1_S2048x64 : S2048x1.Broadcasts S2048x64
  shapeCasts_S2048x64_S1x2048x64 : S2048x64.ShapeCasts S1x2048x64
  shapeCasts_S16x4096x64_S2x8x4096x64 : S16x4096x64.ShapeCasts S2x8x4096x64
  dot_S2048x64_S1024x64_S2048x1024_1_1_0_0_n_n_wf : DotDims.WF S2048x64 S1024x64 S2048x1024 [1] [1] [0] [0] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x4096x64.size a
  hwx0_0 : ∀ i : grid0.Coords, EltTy.bits .f32 = 32 ∨ (Rect.block (s := S16x4096x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x4096x64.size a
  hwx0_1 : ∀ i : grid0.Coords, EltTy.bits .bf16 = 32 ∨ (Rect.block (s := S16x4096x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x4096x64.size a
  hwx0_2 : ∀ i : grid0.Coords, EltTy.bits .bf16 = 32 ∨ (Rect.block (s := S16x4096x64) S1x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x4096x64.size a
  hwx0_3 : ∀ i : grid0.Coords, EltTy.bits .f32 = 32 ∨ (Rect.block (s := S16x4096x64) S1x2048x64.size (cc0_transform_3 i) (hinb0_3 i)).WholeWords (EltTy.packing .f32)

variable [Facts₀]

def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x8x4096x64 : Shape := ⟨4, ![2, 8, 4096, 64]⟩
abbrev S2x4096x8x64 : Shape := ⟨4, ![2, 4096, 8, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S2x8x4096x64, .f32⟩
  | .hbm, ⟨1, _⟩ => ⟨S2x8x4096x64, .f32⟩
  | .hbm, ⟨2, _⟩ => ⟨S2x4096x8x64, .f32⟩
  | .hbm, ⟨3, _⟩ => ⟨S2x8x4096x4096, .f32⟩
  | .hbm, ⟨4, _⟩ => ⟨S_, .f32⟩
  | .hbm, ⟨5, _⟩ => ⟨S2x8x4096x4096, .f32⟩
  | .hbm, ⟨6, _⟩ => ⟨S2x8x4096x4096, .f32⟩
  | .hbm, ⟨7, _⟩ => ⟨S_, .f32⟩
  | .hbm, ⟨8, _⟩ => ⟨S2x8x4096, .f32⟩
  | .hbm, ⟨9, _⟩ => ⟨S_, .f32⟩
  | .hbm, ⟨10, _⟩ => ⟨S2x8x4096, .f32⟩
  | .hbm, ⟨11, _⟩ => ⟨S2x8x4096, .f32⟩
  | .hbm, ⟨12, _⟩ => ⟨S2x8x4096x1, .f32⟩
  | .hbm, ⟨13, _⟩ => ⟨S2x8x4096x4096, .f32⟩
  | .hbm, ⟨14, _⟩ => ⟨S2x8x4096x4096, .f32⟩
  | .hbm, ⟨15, _⟩ => ⟨S2x8x4096x4096, .f32⟩
  | .hbm, ⟨16, _⟩ => ⟨S_, .f32⟩
  | .hbm, ⟨17, _⟩ => ⟨S2x8x4096, .f32⟩
  | .hbm, ⟨18, _⟩ => ⟨S2x8x4096x1, .f32⟩
  | .hbm, ⟨19, _⟩ => ⟨S2x8x4096x4096, .f32⟩
  | .hbm, ⟨20, _⟩ => ⟨S2x8x4096x4096, .f32⟩
  | .hbm, ⟨21, _⟩ => ⟨S2x8x4096x64, .f32⟩
  | .hbm, ⟨22, _⟩ => ⟨S2x8x4096x64, .f32⟩
  | _, _ => ⟨S2x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S2x8x4096x4096 : S_.BroadcastsInDim S2x8x4096x4096 (![] : Fin 0 → Fin S2x8x4096x4096.rank)
  reducesTo_S2x8x4096x4096_S2x8x4096_d3 : S2x8x4096x4096.ReducesTo [3] S2x8x4096
  h_S_ : 0 < S_.numel
  bcast_S_S2x8x4096 : S_.BroadcastsInDim S2x8x4096 (![] : Fin 0 → Fin S2x8x4096.rank)
  bcast_S2x8x4096_S2x8x4096x1_0_1_2 : S2x8x4096.BroadcastsInDim S2x8x4096x1 (![0, 1, 2] : Fin 3 → Fin S2x8x4096x1.rank)
  bcast_S2x8x4096x1_S2x8x4096x4096_0_1_2_3 : S2x8x4096x1.BroadcastsInDim S2x8x4096x4096 (![0, 1, 2, 3] : Fin 4 → Fin S2x8x4096x4096.rank)
  transposes_S2x4096x8x64_S2x8x4096x64_0_2_1_3 : S2x4096x8x64.Transposes [0, 2, 1, 3] S2x8x4096x64
  dot_S2x8x4096x64_S2x8x4096x64_S2x8x4096x4096_3_3_2_2_01_01_wf : DotDims.WF S2x8x4096x64 S2x8x4096x64 S2x8x4096x4096 [3] [3] [2] [2] [0, 1] [0, 1]
  dot_S2x8x4096x4096_S2x8x4096x64_S2x8x4096x64_3_2_2_3_01_01_wf : DotDims.WF S2x8x4096x4096 S2x8x4096x64 S2x8x4096x64 [3] [2] [2] [3] [0, 1] [0, 1]

variable [Facts₀]

def dot_S2x8x4096x64_S2x8x4096x64_S2x8x4096x4096_3_3_2_2_01_01 : DotDims S2x8x4096x64 S2x8x4096x64 S2x8x4096x4096 where
  lhsContracting := [3]
  rhsContracting := [3]
  lhsNonContracting := [2]
  rhsNonContracting := [2]
  lhsBatch := [0, 1]
  rhsBatch := [0, 1]
  wf := dot_S2x8x4096x64_S2x8x4096x64_S2x8x4096x4096_3_3_2_2_01_01_wf
def dot_S2x8x4096x4096_S2x8x4096x64_S2x8x4096x64_3_2_2_3_01_01 : DotDims S2x8x4096x4096 S2x8x4096x64 S2x8x4096x64 where
  lhsContracting := [3]
  rhsContracting := [2]
  lhsNonContracting := [2]
  rhsNonContracting := [3]
  lhsBatch := [0, 1]
  rhsBatch := [0, 1]
  wf := dot_S2x8x4096x4096_S2x8x4096x64_S2x8x4096x64_3_2_2_3_01_01_wf

class Facts : Prop extends Facts₀ where

variable [Facts]
-- ==== Proof.LibFiniteEntries.lean ====
/-
  Reading a "every entry is finite" precondition back, on the extended reals, for any shape.

  A precondition conjunct `jnp.all(jnp.abs(a) < inf)` prints as a reduction by `and`, from the constant 1 into a
  scalar, of the comparison of |a| with the splat of the pattern 0x7F800000. That pattern denotes +∞; on the extended
  reals |v| = max v (-v) is below +∞ exactly when v is a real number. So a conjunct that evaluates to 1 says that
  every entry of the array is (the coercion of) a real number.
-/
import Idealize.ShloMosaic.PureOps.Ideal
import Idealize.ShloMosaic.Lib.ReduceAll
import Idealize.ShloMosaic.Lib.Pipeline.Value
import Idealize.ShloMosaic.Lib.ValueIdx

noncomputable section

namespace Cert.Lib.FiniteEntries

open Idealize.ShloMosaic Idealize.ShloMosaic.ValueIdx

/-- The pattern 0x7F800000 denotes +∞. -/
theorem ofBits_inf : Ideal.ofBits .f32 0x7F800000#32 = (⊤ : EReal) := by
  simp [Ideal.ofBits, Ideal.ieee]

/-- An extended real whose absolute value compares below +∞ is a real number. -/
theorem real_of_abs_lt_inf (v : EReal)
    (h : FloatOps.cmpf (F := Ideal) (φ := .f32) .olt (FloatOps.hostAbsf (F := Ideal) (φ := .f32) v)
      (Ideal.ofBits .f32 0x7F800000#32) = 1#1) : ∃ r : ℝ, v = (r : EReal) := by
  rw [ofBits_inf] at h
  have h' : max v (-v) < (⊤ : EReal) := by
    by_contra hn
    have h0 : FloatOps.cmpf (F := Ideal) (φ := .f32) .olt (FloatOps.hostAbsf (F := Ideal) (φ := .f32) v) (⊤ : EReal)
        = 0#1 := by
      show BitVec.ofBool (decide (max v (-v) < (⊤ : EReal))) = 0#1
      rw [decide_eq_false hn]; rfl
    rw [h0] at h
    exact absurd h (by decide)
  induction v using EReal.rec with
  | bot => exact absurd h' (by simp)
  | coe r => exact ⟨r, rfl⟩
  | top => exact absurd h' (by simp)

/-- The scalar shape has one index. -/
instance : Subsingleton (⟨0, ![]⟩ : Shape).Idx := ⟨fun a b => funext fun d => d.elim0⟩

/-- ONE CONJUNCT OF THE PRECONDITION, READ BACK: if the reduction by `and` of "|a| < +∞" over all axes is 1, every
    entry of the array a is a real number. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a)
        (broadcastInDim s ![] hb (constant (F := Ideal) ⟨0, ![]⟩ .f32 0x7F800000#32)))
      (constantI (⟨0, ![]⟩ : Shape) 1 1#1) hr hu ix0 = 1#1) (i : s.Idx) : ∃ r : ℝ, a i = (r : EReal) := by
  have hi := Host.reduce_andi_all _ _ hr hu ix0 e i
  have hs : broadcastInDim s ![] hb (constant (F := Ideal) ⟨0, ![]⟩ .f32 0x7F800000#32) i
      = Ideal.ofBits .f32 0x7F800000#32 := broadcastInDim_apply _ hb _ i ix0 (fun d => d.elim0)
  have h2 : FloatOps.cmpf (F := Ideal) (φ := .f32) .olt (FloatOps.hostAbsf (F := Ideal) (φ := .f32) (a i))
      (broadcastInDim s ![] hb (constant (F := Ideal) ⟨0, ![]⟩ .f32 0x7F800000#32) i) = 1#1 := hi
  rw [hs] at h2
  exact real_of_abs_lt_inf (a i) h2

end Cert.Lib.FiniteEntries

end
-- ==== Proof.Finite.lean ====
/-
  The precondition, read back: every entry of the three inputs is a real number.

  The precondition is the conjunction of three statements "every entry of the array has absolute value
  below +∞", one per input, each a reduction by `and` of an entrywise comparison, joined by two `and`s
  of one-bit words.  A conjunction of one-bit words is 1 exactly when both words are 1, and a reduction
  by `and` that is 1 says the comparison holds at every entry; on the extended reals |v| < +∞ says that
  v is a real number.
-/
import proofs.«168605_j77068893160143_2_alg».proof.Pre_finite_inputs
import proofs.«168605_j77068893160143_2_alg».proof.Proof.LibFiniteEntries
import Idealize.ShloMosaic.Lib.Affine

noncomputable section

namespace Cert.Attn.Finite

open Idealize.ShloMosaic Idealize.ShloMosaic.ValueIdx

/-- If the precondition evaluates to 1, every entry of each of the three inputs is a real number. -/
theorem reals_of_pre [Cert.Pre_finite_inputs.Facts]
    (x0 x1 : FVec Ideal Cert.Pre_finite_inputs.S2x8x4096x64 .f32) (x2 : FVec Ideal Cert.Pre_finite_inputs.S2x4096x8x64 .f32)
    (h : Cert.Pre_finite_inputs.fn (F := Ideal) x0 x1 x2 = (fun _ => 1#1)) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  -- the outer conjunction, then the inner one
  obtain ⟨h12, h3⟩ := IntOp.andi_eq_one.mp h0
  obtain ⟨h1, h2⟩ := IntOp.andi_eq_one.mp h12
  exact ⟨Cert.Lib.FiniteEntries.real_of_all x0 _ _ _ h1, Cert.Lib.FiniteEntries.real_of_all x1 _ _ _ h2,
    Cert.Lib.FiniteEntries.real_of_all x2 _ _ _ h3⟩

end Cert.Attn.Finite

end
-- ==== Proof.AttnSpec.lean ====
/-
  Scaled dot-product attention of one query row, on the real numbers, and the state an
  online-softmax pass carries while it walks the keys tile by tile.

  For a query row with scores s j (over all keys j) and one column w j of the values, the
  attention output is  (Σ_j e^{s j} · w j) / (Σ_j e^{s j}).  A pass over the keys in tiles of
  1024 carries a running maximum m, a running denominator l and a running numerator a; it never
  needs m to be the true maximum, only that  l · e^m = Σ e^{s j}  and  a · e^m = Σ e^{s j} · w j
  over the keys seen so far: multiplying numerator and denominator by the same e^m cancels in the
  final quotient.  Before the first tile the state is (−∞, 0, 0).
-/
import Idealize.ShloMosaic.PureOps.Ideal
import Idealize.ShloMosaic.Lib.ValueIdx

noncomputable section

open scoped BigOperators

namespace Cert.Attn

open Idealize.ShloMosaic Idealize.ShloMosaic.ValueIdx

/-- The divisor of the scores: the real number the reference's scale literal denotes. -/
def D : ℝ := 11863283 / 524288

/-- Its reciprocal: the factor the kernel multiplies the queries by. -/
def cinv : ℝ := 524288 / 11863283

/-- The scaled score of one query against one key: (Σ_d Q d · K d) / D. -/
def scoreR (Q K : Fin 64 → ℝ) : ℝ := (∑ d : Fin 64, Q d * K d) / D

/-- Attention of one query row with scores `s` against one value column `w`. -/
def attnR {n : ℕ} (s w : Fin n → ℝ) : ℝ := (∑ j : Fin n, Real.exp (s j) * w j) / (∑ j : Fin n, Real.exp (s j))

/-- Σ e^{s} over key tile `i` (keys 1024·i … 1024·i + 1023). -/
def tileDen (S : ℕ → ℝ) (i : ℕ) : ℝ := ∑ j : Fin 1024, Real.exp (S (1024 * i + j.val))

/-- Σ e^{s} · w over key tile `i`. -/
def tileNum (S W : ℕ → ℝ) (i : ℕ) : ℝ := ∑ j : Fin 1024, Real.exp (S (1024 * i + j.val)) * W (1024 * i + j.val)

/-- The state after the first `n` key tiles: the start state (−∞, 0, 0) before any tile, or three
    reals with l · e^m and a · e^m the sums over the tiles seen. -/
def Inv (S W : ℕ → ℝ) (n : ℕ) (m l a : EReal) : Prop :=
  (n = 0 ∧ m = ⊥ ∧ l = 0 ∧ a = 0) ∨
  ∃ mr lr ar : ℝ, m = (mr : EReal) ∧ l = (lr : EReal) ∧ a = (ar : EReal) ∧
    lr * Real.exp mr = ∑ i ∈ Finset.range n, tileDen S i ∧
    ar * Real.exp mr = ∑ i ∈ Finset.range n, tileNum S W i

/-- The maximum of tile `n`'s scores, folded from −∞. -/
def tileMax (S : ℕ → ℝ) (n : ℕ) : EReal :=
  (Finset.univ : Finset (Fin 1024)).fold max ⊥ fun j => ((S (1024 * n + j.val) : ℝ) : EReal)

/-- The running maximum after tile `n`. -/
def newM (S : ℕ → ℝ) (n : ℕ) (m : EReal) : EReal := max m (tileMax S n)

/-- The running denominator after tile `n`. -/
def newL (S : ℕ → ℝ) (n : ℕ) (m l : EReal) : EReal :=
  Ideal.exp (m - newM S n m) * l
    + ∑ j : Fin 1024, Ideal.exp (((S (1024 * n + j.val) : ℝ) : EReal) - newM S n m)

/-- The running numerator after tile `n`. -/
def newA (S W : ℕ → ℝ) (n : ℕ) (m a : EReal) : EReal :=
  Ideal.exp (m - newM S n m) * a
    + ∑ j : Fin 1024, Ideal.exp (((S (1024 * n + j.val) : ℝ) : EReal) - newM S n m) * ((W (1024 * n + j.val) : ℝ) : EReal)

/-- The shapes of the arguments. -/
abbrev SQ : Shape := ⟨4, ![2, 8, 4096, 64]⟩
abbrev SV : Shape := ⟨4, ![2, 4096, 8, 64]⟩

/-- The scores of query (b, h, i) against every key, from arrays of extended reals read as reals. -/
def rowScore (q k : SQ.Idx → EReal) (b : Fin 2) (h : Fin 8) (i : Fin 4096) (j : Fin 4096) : ℝ :=
  scoreR (fun d => (q (ix4 b h i d)).toReal) (fun d => (k (ix4 b h j d)).toReal)

/-- THE RESULT both programs compute: entry (b, h, i, e) is the attention of query row (b, h, i)
    against column e of head h's values (the values are laid out [batch, key, head, column]). -/
def G (q k : SQ.Idx → EReal) (v : SV.Idx → EReal) : SQ.Idx → EReal := fun idx =>
  ((attnR (rowScore q k (idx 0) (idx 1) (idx 2)) (fun j => (v (ix4 (idx 0) j (idx 1) (idx 3))).toReal) : ℝ) : EReal)

theorem G_apply (q k : SQ.Idx → EReal) (v : SV.Idx → EReal) (b : Fin 2) (h : Fin 8) (i : Fin 4096) (e : Fin 64) :
    G q k v (ix4 b h i e) = ((attnR (rowScore q k b h i) (fun j => (v (ix4 b j h e)).toReal) : ℝ) : EReal) := rfl

end Cert.Attn

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibRank4Layout.lean ====
/-
  Reshapes, the middle-axes transpose and the `broadcast_in_dim`s of an attention layer's host code, read at an index
  given by its coordinates, for any sizes.

  * Reshapes (a row-major re-indexing): the last axis split in two, `[a,b,n] → [a,b,c,d]` with n = c·d, and merged
    back; the first two axes merged, `[a,b,c] → [m,c]` with m = a·b, and split back.  Each is stated with the merged
    coordinate and the two split coordinates related by a hypothesis (j = r·d + t), so no division appears.
  * The transpose that swaps the two middle axes of a rank-4 array, `[a,b,c,d] → [a,c,b,d]` (permutation [0,2,1,3]).
  * `broadcast_in_dim`: a scalar to any shape; a vector `[n]` as `[1,1,n]` and that along both leading axes to
    `[a,b,n]`; a matrix `[a,b]` as `[a,b,1]` and that along the last axis to `[a,b,c]`; a rank-3 array `[a,c,d]` as
    `[a,1,c,d]` and that along axis 1 to `[a,b,c,d]`; a rank-3 array `[a,b,c]` as `[a,b,c,1]` and that along the
    last axis to `[a,b,c,d]`.
-/
import Idealize.ShloMosaic.Lib.ValueIdx
import Idealize.ShloMosaic.Lib.Pipeline.Value

namespace Cert.Lib.Rank4Layout

open Idealize.ShloMosaic Idealize.ShloMosaic.ValueIdx

variable {α : Type}

/-! ## Reshapes -/

/-- The last axis split: entry (p, q, r, t) of the result is entry (p, q, j) of the source, j = r·d + t. -/
theorem splitLast_apply {a b n c d : Nat} (v : (⟨3, ![a, b, n]⟩ : Shape).Idx → α)
    (h : (⟨3, ![a, b, n]⟩ : Shape).ShapeCasts ⟨4, ![a, b, c, d]⟩) (hn : n = c * d)
    (p : Fin a) (q : Fin b) (r : Fin c) (t : Fin d) (j : Fin n) (hj : j.val = r.val * d + t.val) :
    shapeCast (⟨4, ![a, b, c, d]⟩ : Shape) v h (ix4 p q r t) = v (ix3 p q j) := by
  refine shapeCast_apply v h (ix4 p q r t) (ix3 p q j) ?_
  rw [Shape.rowMajor_val_three, Shape.rowMajor_val_four]
  show (p.val * b + q.val) * n + j.val = ((p.val * b + q.val) * c + r.val) * d + t.val
  rw [hj, hn]; ring

/-- The last two axes merged: entry (p, q, j) of the result is entry (p, q, r, t) of the source, j = r·d + t. -/
theorem mergeLast_apply {a b n c d : Nat} (v : (⟨4, ![a, b, c, d]⟩ : Shape).Idx → α)
    (h : (⟨4, ![a, b, c, d]⟩ : Shape).ShapeCasts ⟨3, ![a, b, n]⟩) (hn : n = c * d)
    (p : Fin a) (q : Fin b) (j : Fin n) (r : Fin c) (t : Fin d) (hj : j.val = r.val * d + t.val) :
    shapeCast (⟨3, ![a, b, n]⟩ : Shape) v h (ix3 p q j) = v (ix4 p q r t) := by
  refine shapeCast_apply v h (ix3 p q j) (ix4 p q r t) ?_
  rw [Shape.rowMajor_val_three, Shape.rowMajor_val_four]
  show ((p.val * b + q.val) * c + r.val) * d + t.val = (p.val * b + q.val) * n + j.val
  rw [hj, hn]; ring

/-- The first two axes merged: entry (i, r) of the result is entry (p, q, r) of the source, i = p·b + q. -/
theorem mergeFirst_apply {a b c m : Nat} (v : (⟨3, ![a, b, c]⟩ : Shape).Idx → α)
    (h : (⟨3, ![a, b, c]⟩ : Shape).ShapeCasts ⟨2, ![m, c]⟩)
    (i : Fin m) (r : Fin c) (p : Fin a) (q : Fin b) (hi : i.val = p.val * b + q.val) :
    shapeCast (⟨2, ![m, c]⟩ : Shape) v h (ix2 i r) = v (ix3 p q r) := by
  refine shapeCast_apply v h (ix2 i r) (ix3 p q r) ?_
  rw [Shape.rowMajor_val_three, Shape.rowMajor_val_two]
  show (p.val * b + q.val) * c + r.val = i.val * c + r.val
  rw [hi]

/-- The first axis split: entry (p, q, r) of the result is entry (i, r) of the source, i = p·b + q. -/
theorem splitFirst_apply {a b c m : Nat} (v : (⟨2, ![m, c]⟩ : Shape).Idx → α)
    (h : (⟨2, ![m, c]⟩ : Shape).ShapeCasts ⟨3, ![a, b, c]⟩)
    (p : Fin a) (q : Fin b) (r : Fin c) (i : Fin m) (hi : i.val = p.val * b + q.val) :
    shapeCast (⟨3, ![a, b, c]⟩ : Shape) v h (ix3 p q r) = v (ix2 i r) := by
  refine shapeCast_apply v h (ix3 p q r) (ix2 i r) ?_
  rw [Shape.rowMajor_val_three, Shape.rowMajor_val_two]
  show i.val * c + r.val = (p.val * b + q.val) * c + r.val
  rw [hi]

/-! ## The middle-axes transpose -/

/-- Entry (p, r, q, t) of the transpose is entry (p, q, r, t) of the source. -/
theorem swapMiddle_apply {a b c d : Nat} (v : (⟨4, ![a, b, c, d]⟩ : Shape).Idx → α)
    (h : (⟨4, ![a, b, c, d]⟩ : Shape).Transposes [0, 2, 1, 3] ⟨4, ![a, c, b, d]⟩)
    (p : Fin a) (r : Fin c) (q : Fin b) (t : Fin d) :
    transpose (⟨4, ![a, c, b, d]⟩ : Shape) [0, 2, 1, 3] v h (ix4 p r q t) = v (ix4 p q r t) := by
  refine transpose_apply [0, 2, 1, 3] v h (ix4 p r q t) (ix4 p q r t) fun bx => ?_
  match bx with
  | ⟨0, _⟩ => rfl
  | ⟨1, _⟩ => rfl
  | ⟨2, _⟩ => rfl
  | ⟨3, _⟩ => rfl

/-! ## `broadcast_in_dim` -/

/-- A coordinate kept by a broadcast: itself, or 0 when the axis has extent one (then it is 0 anyway). -/
theorem keep {a : Nat} (p : Fin a) : p.val = if a = 1 then 0 else p.val := by
  by_cases ha : a = 1
  · rw [if_pos ha]; have := p.isLt; omega
  · rw [if_neg ha]

/-- A coordinate on a unit axis of the operand is 0. -/
theorem unit (z : Fin 1) (x : Nat) : z.val = if (1 : Nat) = 1 then 0 else x := by
  rw [if_pos rfl]; have := z.isLt; omega

/-- A scalar to any shape: every entry is the scalar. -/
theorem scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply (![] : Fin 0 → Fin t.rank) h v j ix0 (fun ax => ax.elim0)

/-- A vector as `[1,1,n]`: entry (z0, z1, q) is the vector's entry q. -/
theorem vecTo11n_apply {n : Nat} (v : (⟨1, ![n]⟩ : Shape).Idx → α)
    (h : (⟨1, ![n]⟩ : Shape).BroadcastsInDim ⟨3, ![1, 1, n]⟩ (![2] : Fin 1 → Fin 3)) (z0 z1 : Fin 1) (q : Fin n) :
    broadcastInDim (⟨3, ![1, 1, n]⟩ : Shape) (![2] : Fin 1 → Fin 3) h v (ix3 z0 z1 q) = v (ix1 q) := by
  refine broadcastInDim_apply (![2] : Fin 1 → Fin 3) h v (ix3 z0 z1 q) (ix1 q) fun ax => ?_
  match ax with
  | ⟨0, _⟩ => exact keep q

/-- `[1,1,n]` along both leading axes: entry (p, q, r) is the operand's entry (0, 0, r). -/
theorem lead11n_apply {a b n : Nat} (v : (⟨3, ![1, 1, n]⟩ : Shape).Idx → α)
    (h : (⟨3, ![1, 1, n]⟩ : Shape).BroadcastsInDim ⟨3, ![a, b, n]⟩ (![0, 1, 2] : Fin 3 → Fin 3)) (p : Fin a) (q : Fin b) (r : Fin n) :
    broadcastInDim (⟨3, ![a, b, n]⟩ : Shape) (![0, 1, 2] : Fin 3 → Fin 3) h v (ix3 p q r) = v (ix3 (0 : Fin 1) (0 : Fin 1) r) := by
  refine broadcastInDim_apply (![0, 1, 2] : Fin 3 → Fin 3) h v (ix3 p q r) (ix3 (0 : Fin 1) (0 : Fin 1) r) fun ax => ?_
  match ax with
  | ⟨0, _⟩ => exact unit 0 p.val
  | ⟨1, _⟩ => exact unit 0 q.val
  | ⟨2, _⟩ => exact keep r

/-- A matrix as `[a,b,1]`: entry (p, q, z) is the matrix's entry (p, q). -/
theorem matToAb1_apply {a b : Nat} (v : (⟨2, ![a, b]⟩ : Shape).Idx → α)
    (h : (⟨2, ![a, b]⟩ : Shape).BroadcastsInDim ⟨3, ![a, b, 1]⟩ (![0, 1] : Fin 2 → Fin 3)) (p : Fin a) (q : Fin b) (z : Fin 1) :
    broadcastInDim (⟨3, ![a, b, 1]⟩ : Shape) (![0, 1] : Fin 2 → Fin 3) h v (ix3 p q z) = v (ix2 p q) := by
  refine broadcastInDim_apply (![0, 1] : Fin 2 → Fin 3) h v (ix3 p q z) (ix2 p q) fun ax => ?_
  match ax with
  | ⟨0, _⟩ => exact keep p
  | ⟨1, _⟩ => exact keep q

/-- `[a,b,1]` along the last axis: entry (p, q, r) is the operand's entry (p, q, 0). -/
theorem lastAb1_apply {a b c : Nat} (v : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b) (r : Fin c) :
    broadcastInDim (⟨3, ![a, b, c]⟩ : Shape) (![0, 1, 2] : Fin 3 → Fin 3) h v (ix3 p q r) = v (ix3 p q (0 : Fin 1)) := by
  refine broadcastInDim_apply (![0, 1, 2] : Fin 3 → Fin 3) h v (ix3 p q r) (ix3 p q (0 : Fin 1)) fun ax => ?_
  match ax with
  | ⟨0, _⟩ => exact keep p
  | ⟨1, _⟩ => exact keep q
  | ⟨2, _⟩ => exact unit 0 r.val

/-- A rank-3 array as `[a,1,c,d]`: entry (p, z, r, t) is the array's entry (p, r, t). -/
theorem r3ToA1cd_apply {a c d : Nat} (v : (⟨3, ![a, c, d]⟩ : Shape).Idx → α)
    (h : (⟨3, ![a, c, d]⟩ : Shape).BroadcastsInDim ⟨4, ![a, 1, c, d]⟩ (![0, 2, 3] : Fin 3 → Fin 4))
    (p : Fin a) (z : Fin 1) (r : Fin c) (t : Fin d) :
    broadcastInDim (⟨4, ![a, 1, c, d]⟩ : Shape) (![0, 2, 3] : Fin 3 → Fin 4) h v (ix4 p z r t) = v (ix3 p r t) := by
  refine broadcastInDim_apply (![0, 2, 3] : Fin 3 → Fin 4) h v (ix4 p z r t) (ix3 p r t) fun ax => ?_
  match ax with
  | ⟨0, _⟩ => exact keep p
  | ⟨1, _⟩ => exact keep r
  | ⟨2, _⟩ => exact keep t

/-- `[a,1,c,d]` along axis 1: entry (p, q, r, t) is the operand's entry (p, 0, r, t). -/
theorem axis1A1cd_apply {a b c d : Nat} (v : (⟨4, ![a, 1, c, d]⟩ : Shape).Idx → α)
    (h : (⟨4, ![a, 1, c, d]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p (0 : Fin 1) r t) := by
  refine broadcastInDim_apply (![0, 1, 2, 3] : Fin 4 → Fin 4) h v (ix4 p q r t) (ix4 p (0 : Fin 1) r t) fun ax => ?_
  match ax with
  | ⟨0, _⟩ => exact keep p
  | ⟨1, _⟩ => exact unit 0 q.val
  | ⟨2, _⟩ => exact keep r
  | ⟨3, _⟩ => exact keep t

/-- A rank-3 array as `[a,b,c,1]`: entry (p, q, r, z) is the array's entry (p, q, r). -/
theorem r3ToAbc1_apply {a b c : Nat} (v : (⟨3, ![a, b, c]⟩ : Shape).Idx → α)
    (h : (⟨3, ![a, b, c]⟩ : Shape).BroadcastsInDim ⟨4, ![a, b, c, 1]⟩ (![0, 1, 2] : Fin 3 → Fin 4))
    (p : Fin a) (q : Fin b) (r : Fin c) (z : Fin 1) :
    broadcastInDim (⟨4, ![a, b, c, 1]⟩ : Shape) (![0, 1, 2] : Fin 3 → Fin 4) h v (ix4 p q r z) = v (ix3 p q r) := by
  refine broadcastInDim_apply (![0, 1, 2] : Fin 3 → Fin 4) h v (ix4 p q r z) (ix3 p q r) fun ax => ?_
  match ax with
  | ⟨0, _⟩ => exact keep p
  | ⟨1, _⟩ => exact keep q
  | ⟨2, _⟩ => exact keep r

/-- `[a,b,c,1]` along the last axis: entry (p, q, r, t) is the operand's entry (p, q, r, 0). -/
theorem lastAbc1_apply {a b c d : Nat} (v : (⟨4, ![a, b, c, 1]⟩ : Shape).Idx → α)
    (h : (⟨4, ![a, b, c, 1]⟩ : Shape).BroadcastsInDim ⟨4, ![a, b, c, d]⟩ (![0, 1, 2, 3] : Fin 4 → Fin 4))
    (p : Fin a) (q : Fin b) (r : Fin c) (t : Fin d) :
    broadcastInDim (⟨4, ![a, b, c, d]⟩ : Shape) (![0, 1, 2, 3] : Fin 4 → Fin 4) h v (ix4 p q r t) = v (ix4 p q r (0 : Fin 1)) := by
  refine broadcastInDim_apply (![0, 1, 2, 3] : Fin 4 → Fin 4) h v (ix4 p q r t) (ix4 p q r (0 : Fin 1)) fun ax => ?_
  match ax with
  | ⟨0, _⟩ => exact keep p
  | ⟨1, _⟩ => exact keep q
  | ⟨2, _⟩ => exact keep r
  | ⟨3, _⟩ => exact unit 0 t.val

end Cert.Lib.Rank4Layout
-- ==== Proof.LibSoftmaxRow.lean ====
/-
  A softmax row on the extended reals, for any length: exp (s k − M) over the row's sum of exp (s j − M), with M the
  row's maximum taken from minus infinity.  A kernel computes exactly this; the host's routine takes the maximum once
  more against minus infinity and starts its sum from a zero — both change nothing, for every row of extended reals
  (infinite entries included).
-/
import Idealize.ShloMosaic.PureOps.Ideal

noncomputable section

open scoped BigOperators

namespace Cert.Lib.SoftmaxRow

open Idealize.ShloMosaic

variable {n : ℕ}

/-- The row maximum, from minus infinity. -/
def rowMax (s : Fin n → EReal) : EReal := (Finset.univ : Finset (Fin n)).fold max ⊥ s

/-- The softmax of a row. -/
def softmax (s : Fin n → EReal) (k : Fin n) : EReal :=
  Ideal.div (Ideal.exp (s k - rowMax s)) (∑ j : Fin n, Ideal.exp (s j - rowMax s))

/-- The kernel's form: the maximum folded from a word denoting minus infinity. -/
theorem kernel_form (s : Fin n → EReal) (k : Fin n) (m0 : EReal) (hm0 : m0 = ⊥) :
    Ideal.div (Ideal.exp (s k - (Finset.univ : Finset (Fin n)).fold max m0 s))
        (∑ j : Fin n, Ideal.exp (s j - (Finset.univ : Finset (Fin n)).fold max m0 s)) = softmax s k := by
  subst hm0; rfl

/-- The host routine's form: the folded maximum maxed once more with minus infinity, the sum started from a zero. -/
theorem host_form (s : Fin n → EReal) (k : Fin n) (m0 m1 z : EReal) (hm0 : m0 = ⊥) (hm1 : m1 = ⊥) (hz : z = 0) :
    Ideal.div (Ideal.exp (s k - max m1 ((Finset.univ : Finset (Fin n)).fold max m0 s)))
        (z + ∑ j : Fin n, Ideal.exp (s j - max m1 ((Finset.univ : Finset (Fin n)).fold max m0 s))) = softmax s k := by
  subst hm0 hm1 hz
  rw [max_eq_right bot_le, zero_add]
  rfl

end Cert.Lib.SoftmaxRow

end
-- ==== Proof.LibHostSoftmax4.lean ====
/-
  Softmax along the last axis of a rank-4 array as the host's routine states it, for any sizes, on the extended reals:
  the maximum reduced from an initial value and taken once more against a broadcast scalar, put back on the rows (as
  `[a,b,c,1]`, then along the last axis); exp of the difference; the sum reduced from an initial value, put back the same
  way; the quotient.  When the two maximum scalars denote minus infinity and the sum's initial value denotes zero, entry
  (p, q, r, k) is the softmax of the row (p, q, r, ·) at k.
-/
import proofs.«168605_j77068893160143_2_alg».proof.Proof.LibLastAxis
import proofs.«168605_j77068893160143_2_alg».proof.Proof.LibRank4Layout
import proofs.«168605_j77068893160143_2_alg».proof.Proof.LibSoftmaxRow

noncomputable section

open scoped BigOperators

namespace Cert.Lib.HostSoftmax4

open Idealize.ShloMosaic Idealize.ShloMosaic.ValueIdx Cert.Lib.LastAxis Cert.Lib.Rank4Layout Cert.Lib.SoftmaxRow

variable {a b c d : ℕ} {φ : FTy}
variable (hbS : (⟨0, ![]⟩ : Shape).BroadcastsInDim ⟨3, ![a, b, c]⟩ (![] : Fin 0 → Fin 3))
  (hR' : (⟨4, ![a, b, c, d]⟩ : Shape).ReducesTo [(3 : Fin 4)] ⟨3, ![a, b, c]⟩)
  (hR : (⟨4, ![a, b, c, d]⟩ : Shape).Reduces [(3 : Fin 4)] ⟨3, ![a, b, c]⟩) (hu : 0 < (⟨0, ![]⟩ : Shape).numel)
  (hb1 : (⟨3, ![a, b, c]⟩ : Shape).BroadcastsInDim ⟨4, ![a, b, c, 1]⟩ (![0, 1, 2] : Fin 3 → Fin 4))
  (hb2 : (⟨4, ![a, b, c, 1]⟩ : Shape).BroadcastsInDim ⟨4, ![a, b, c, d]⟩ (![0, 1, 2, 3] : Fin 4 → Fin 4))
  (s : FVec Ideal ⟨4, ![a, b, c, d]⟩ φ) (m0 m1 z : FVec Ideal ⟨0, ![]⟩ φ)

/-- The row maxima as the routine takes them. -/
def rowMaxima : FVec Ideal ⟨3, ![a, b, c]⟩ φ :=
  maximumf (broadcastInDim (⟨3, ![a, b, c]⟩ : Shape) (![] : Fin 0 → Fin 3) hbS m1) (Host.reduce FloatOps.maximumf s m0 hR' hu)

/-- exp (s − row maximum). -/
def expShifted : FVec Ideal ⟨4, ![a, b, c, d]⟩ φ :=
  Host.exp (subf s (broadcastInDim (⟨4, ![a, b, c, d]⟩ : Shape) (![0, 1, 2, 3] : Fin 4 → Fin 4) hb2
    (broadcastInDim (⟨4, ![a, b, c, 1]⟩ : Shape) (![0, 1, 2] : Fin 3 → Fin 4) hb1 (rowMaxima hbS hR' hu s m0 m1))))

/-- The routine's result. -/
def hostSoftmax : FVec Ideal ⟨4, ![a, b, c, d]⟩ φ :=
  Host.divf (expShifted hbS hR' hu hb1 hb2 s m0 m1)
    (broadcastInDim (⟨4, ![a, b, c, d]⟩ : Shape) (![0, 1, 2, 3] : Fin 4 → Fin 4) hb2
      (broadcastInDim (⟨4, ![a, b, c, 1]⟩ : Shape) (![0, 1, 2] : Fin 3 → Fin 4) hb1
        (Host.reduceAdd (expShifted hbS hR' hu hb1 hb2 s m0 m1) z hR' hu)))

section Reads

attribute [local irreducible] Host.reduce Host.reduceAdd

include hR in
theorem rowMaxima_apply (p : Fin a) (q : Fin b) (r : Fin c) :
    rowMaxima hbS hR' hu s m0 m1 (ix3 p q r)
      = max (m1 ix0) ((Finset.univ : Finset (Fin d)).fold max (m0 ix0) fun j => s (ix4 p q r j)) := by
  unfold rowMaxima
  rw [maximumf_apply, scalar_apply, hostMax_last4 s m0 hR' hR hu p q r]

theorem expShifted_apply (p : Fin a) (q : Fin b) (r : Fin c) (k : Fin d) :
    expShifted hbS hR' hu hb1 hb2 s m0 m1 (ix4 p q r k) = Ideal.exp (s (ix4 p q r k) - rowMaxima hbS hR' hu s m0 m1 (ix3 p q r)) := by
  unfold expShifted
  show Ideal.exp (s (ix4 p q r k) - _) = _
  rw [lastAbc1_apply, r3ToAbc1_apply]

include hR in
/-- THE COMPOSITE: entry (p, q, r, k) is the softmax of the row at k. -/
theorem hostSoftmax_apply (hm0 : m0 ix0 = (⊥ : EReal)) (hm1 : m1 ix0 = (⊥ : EReal)) (hz : z ix0 = (0 : EReal))
    (p : Fin a) (q : Fin b) (r : Fin c) (k : Fin d) :
    hostSoftmax hbS hR' hu hb1 hb2 s m0 m1 z (ix4 p q r k) = softmax (fun j => s (ix4 p q r j)) k := by
  unfold hostSoftmax
  show Ideal.div (expShifted hbS hR' hu hb1 hb2 s m0 m1 (ix4 p q r k)) _ = _
  rw [lastAbc1_apply, r3ToAbc1_apply, hostSum_last4 _ z hR' hR hu p q r]
  simp only [expShifted_apply, rowMaxima_apply hbS hR' hR hu s m0 m1 p q r]
  exact host_form (fun j => s (ix4 p q r j)) k (m0 ix0) (m1 ix0) (z ix0) hm0 hm1 hz

end Reads

end Cert.Lib.HostSoftmax4

end
-- ==== Proof.RefAlgebra.lean ====
/-
  Two facts about one row of attention on the extended reals, when every entry involved is a real number.

  * A softmax row against a column of values.  For real scores s and n > 0 keys, the row maximum M (the fold of max
    from minus infinity) is a real number, every exp (s j - M) is a positive real, and so is their sum L.  Then
    sum_j (exp (s j - M) / L) * w j = (sum_j exp (s j) * w j) / (sum_j exp (s j)): multiply numerator and denominator
    by exp M.
  * A scaled score.  The contraction of two real rows over the 64 columns, divided by the scale D (a nonzero real),
    is the real number (sum_d Q d * K d) / D.
-/
import proofs.«168605_j77068893160143_2_alg».proof.Proof.AttnSpec
import proofs.«168605_j77068893160143_2_alg».proof.Proof.LibSoftmaxRow

noncomputable section

open scoped BigOperators

namespace Cert.Attn.RefSide

open Idealize.ShloMosaic Cert.Lib.SoftmaxRow

/-- The coercion of the reals into the extended reals commutes with finite sums. -/
theorem coe_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- The fold of max from minus infinity over a finite set of coerced reals is minus infinity on the empty set and a
    real number otherwise. -/
theorem fold_max_real {ι : Type*} [DecidableEq ι] (S : Finset ι) (s : ι → ℝ) :
    (S = ∅ ∧ S.fold max (⊥ : EReal) (fun j => ((s j : ℝ) : EReal)) = ⊥) ∨
      ∃ t : ℝ, S.fold max (⊥ : EReal) (fun j => ((s j : ℝ) : EReal)) = (t : EReal) := by
  induction S using Finset.induction_on with
  | empty => exact Or.inl ⟨rfl, Finset.fold_empty⟩
  | insert a S ha ih =>
    refine Or.inr ?_
    rw [Finset.fold_insert ha]
    rcases ih with ⟨_, h⟩ | ⟨t, h⟩
    · exact ⟨s a, by rw [h]; exact max_eq_left bot_le⟩
    · exact ⟨max (s a) t, by rw [h]; exact (EReal.coe_strictMono.monotone.map_max).symm⟩

/-- The maximum of a nonempty row of reals is a real number. -/
theorem rowMax_real {n : ℕ} (hn : 0 < n) (s : Fin n → ℝ) :
    ∃ t : ℝ, rowMax (fun j => ((s j : ℝ) : EReal)) = (t : EReal) := by
  rcases fold_max_real (Finset.univ : Finset (Fin n)) s with ⟨h, _⟩ | h
  · exact absurd h (Finset.univ_nonempty_iff.mpr ⟨⟨0, hn⟩⟩).ne_empty
  · exact h

/-- THE SOFTMAX ROW AGAINST A COLUMN: the softmax weights of a row of real scores, times a column of real values,
    summed over the keys, is the attention quotient. -/
theorem softmax_attn {n : ℕ} (hn : 0 < n) (s w : Fin n → ℝ) :
    (∑ j : Fin n, Cert.Lib.SoftmaxRow.softmax (fun j => ((s j : ℝ) : EReal)) j * ((w j : ℝ) : EReal))
      = ((Cert.Attn.attnR s w : ℝ) : EReal) := by
  obtain ⟨t, ht⟩ := rowMax_real hn s
  -- every shifted exponential is the coercion of a positive real
  have hexp : ∀ j : Fin n, Ideal.exp (((s j : ℝ) : EReal) - rowMax (fun j => ((s j : ℝ) : EReal)))
      = ((Real.exp (s j - t) : ℝ) : EReal) := by
    intro j
    rw [ht, ← EReal.coe_sub]
    rfl
  have hLpos : 0 < ∑ j : Fin n, Real.exp (s j - t) :=
    Finset.sum_pos (fun j _ => Real.exp_pos _) (Finset.univ_nonempty_iff.mpr ⟨⟨0, hn⟩⟩)
  have hZpos : 0 < ∑ j : Fin n, Real.exp (s j) :=
    Finset.sum_pos (fun j _ => Real.exp_pos _) (Finset.univ_nonempty_iff.mpr ⟨⟨0, hn⟩⟩)
  have hterm : ∀ j : Fin n, Cert.Lib.SoftmaxRow.softmax (fun j => ((s j : ℝ) : EReal)) j * ((w j : ℝ) : EReal)
      = ((Real.exp (s j - t) * (1 / ∑ i : Fin n, Real.exp (s i - t)) * w j : ℝ) : EReal) := by
    intro j
    unfold Cert.Lib.SoftmaxRow.softmax
    simp only [hexp]
    rw [← coe_sum, Ideal.div_coe hLpos.ne', ← EReal.coe_mul, ← EReal.coe_mul]
  simp only [hterm]
  rw [← coe_sum]
  congr 1
  -- the real identity: multiply numerator and denominator by exp t
  unfold Cert.Attn.attnR
  have hshift : ∀ j : Fin n, Real.exp (s j - t) = Real.exp (s j) * Real.exp (-t) := by
    intro j; rw [sub_eq_add_neg, Real.exp_add]
  have hL : (∑ i : Fin n, Real.exp (s i - t)) = (∑ i : Fin n, Real.exp (s i)) * Real.exp (-t) := by
    rw [Finset.sum_mul]; exact Finset.sum_congr rfl fun j _ => hshift j
  rw [hL, Finset.sum_div]
  refine Finset.sum_congr rfl fun j _ => ?_
  rw [hshift j]
  have hc : Real.exp (-t) ≠ 0 := (Real.exp_pos _).ne'
  have hZ : (∑ i : Fin n, Real.exp (s i)) ≠ 0 := hZpos.ne'
  field_simp

/-- The scale is a nonzero real. -/
theorem D_ne_zero : Cert.Attn.D ≠ 0 := by
  unfold Cert.Attn.D; norm_num

/-- THE SCALED SCORE: the contraction of two real rows, divided by the scale, is the real scaled score. -/
theorem score_ref (Q K : Fin 64 → ℝ) :
    Ideal.div (∑ d : Fin 64, ((Q d : ℝ) : EReal) * ((K d : ℝ) : EReal)) ((Cert.Attn.D : ℝ) : EReal)
      = ((Cert.Attn.scoreR Q K : ℝ) : EReal) := by
  rw [Ideal.div_coe D_ne_zero]
  simp only [← EReal.coe_mul]
  rw [← coe_sum, ← EReal.coe_mul]
  congr 1
  unfold Cert.Attn.scoreR
  rw [mul_one_div]

end Cert.Attn.RefSide

end
-- ==== Proof.RefSide.lean ====
/-
  The reference program computes scaled dot-product attention.

  The reference contracts the queries with the keys over the 64 columns, divides every score by the scale D,
  takes the softmax of each row of 4096 scores, lays the values out as [batch, head, key, column] and contracts the
  softmax weights with them over the keys.  When every entry of the three arguments is a real number, entry
  (b, h, i, e) of the result is therefore
      (sum_j exp (s j) * v (b, j, h, e)) / (sum_j exp (s j)),   s j = (sum_d q (b, h, i, d) * k (b, h, j, d)) / D,
  which is the function G of the specification.
-/
import proofs.«168605_j77068893160143_2_alg».proof.Proof.Gen.ReferenceIdeal.Read
import proofs.«168605_j77068893160143_2_alg».proof.Proof.AttnSpec
import proofs.«168605_j77068893160143_2_alg».proof.Proof.LibHostSoftmax4
import proofs.«168605_j77068893160143_2_alg».proof.Proof.RefAlgebra

noncomputable section

open scoped BigOperators

namespace Cert.Attn.RefSide

open Idealize.ShloMosaic Idealize.ShloMosaic.ValueIdx Cert.ReferenceIdeal Cert.ReferenceIdeal.Gen Cert.ReferenceIdeal.Read
  Cert.Lib.SoftmaxRow Cert.Lib.HostSoftmax4

/-! ## The three scalar constants -/

/-- The scale literal denotes the real number D = 11863283 / 524288. -/
theorem ofBits_scale : Ideal.ofBits .f32 0x41B504F3#32 = ((Cert.Attn.D : ℝ) : EReal) := by
  unfold Cert.Attn.D
  simp [Ideal.ofBits, Ideal.ieee, -EReal.coe_mul]
  norm_num

/-- The pattern 0xFF800000 denotes minus infinity. -/
theorem ofBits_ninf : Ideal.ofBits .f32 0xFF800000#32 = (⊥ : EReal) := by
  simp [Ideal.ofBits, Ideal.ieee]

/-- An extended real that is the coercion of a real is the coercion of its real part. -/
theorem coe_toReal_of_real (x : EReal) (h : ∃ r : ℝ, x = (r : EReal)) : ((x.toReal : ℝ) : EReal) = x := by
  obtain ⟨r, rfl⟩ := h
  rw [EReal.toReal_coe]

/-! ## The indices the operations read -/

theorem lidx_v0 (b : Fin 2) (h : Fin 8) (i j : Fin 4096) (d : Fin 64) :
    lidx_main_v0 (ix4 b h i j) d = ix4 b h i d :=
  funext fun a => Fin.ext (by match a with | ⟨0, _⟩ => rfl | ⟨1, _⟩ => rfl | ⟨2, _⟩ => rfl | ⟨3, _⟩ => rfl)

theorem ridx_v0 (b : Fin 2) (h : Fin 8) (i j : Fin 4096) (d : Fin 64) :
    ridx_main_v0 (ix4 b h i j) d = ix4 b h j d :=
  funext fun a => Fin.ext (by match a with | ⟨0, _⟩ => rfl | ⟨1, _⟩ => rfl | ⟨2, _⟩ => rfl | ⟨3, _⟩ => rfl)

theorem lidx_v15 (b : Fin 2) (h : Fin 8) (i : Fin 4096) (e : Fin 64) (k : Fin 4096) :
    lidx_main_v15 (ix4 b h i e) k = ix4 b h i k :=
  funext fun a => Fin.ext (by match a with | ⟨0, _⟩ => rfl | ⟨1, _⟩ => rfl | ⟨2, _⟩ => rfl | ⟨3, _⟩ => rfl)

theorem ridx_v15 (b : Fin 2) (h : Fin 8) (i : Fin 4096) (e : Fin 64) (k : Fin 4096) :
    idx_main_v14 (ridx_main_v15 (ix4 b h i e) k) = ix4 b k h e :=
  funext fun a => Fin.ext (by match a with | ⟨0, _⟩ => rfl | ⟨1, _⟩ => rfl | ⟨2, _⟩ => rfl | ⟨3, _⟩ => rfl)

/-! ## The scores -/

/-- Entry (b, h, i, j) of the scaled scores is the real scaled score of query row (b, h, i) against key row (b, h, j). -/
theorem score_apply (x0 x1 : (⟨Cert.ReferenceIdeal.S2x8x4096x64, .f32⟩ : BufTy).Contents (Elt Ideal))
    (h0 : ∀ i, ∃ r : ℝ, x0 i = (r : EReal)) (h1 : ∀ i, ∃ r : ℝ, x1 i = (r : EReal))
    (b : Fin 2) (h : Fin 8) (i j : Fin 4096) :
    val_main_v2 (F := Ideal) x0 x1 (ix4 b h i j) = ((Cert.Attn.rowScore x0 x1 b h i j : ℝ) : EReal) := by
  rw [val_main_v2_apply, val_main_v0_apply, val_main_v1_apply, val_main_cst_apply]
  simp only [Ideal.hostDivf_def, Ideal.ofBits_def, lidx_v0, ridx_v0]
  rw [ofBits_scale]
  unfold Cert.Attn.rowScore
  rw [← score_ref]
  congr 1
  refine Finset.sum_congr rfl fun d _ => ?_
  rw [coe_toReal_of_real _ (h0 _), coe_toReal_of_real _ (h1 _)]

/-! ## The softmax weights -/

/-- Entry (b, h, i, k) of the softmax stage is the softmax of row (b, h, i) of the scaled scores at k. -/
theorem weights_apply (x0 x1 : (⟨Cert.ReferenceIdeal.S2x8x4096x64, .f32⟩ : BufTy).Contents (Elt Ideal))
    (b : Fin 2) (h : Fin 8) (i k : Fin 4096) :
    val_main_v13 (F := Ideal) x0 x1 (ix4 b h i k)
      = softmax (fun j => val_main_v2 (F := Ideal) x0 x1 (ix4 b h i j)) k :=
  hostSoftmax_apply (a := 2) (b := 8) (c := 4096) (d := 4096) (φ := .f32)
    bcast_S_S2x8x4096 reducesTo_S2x8x4096x4096_S2x8x4096_d3 (by decide) h_S_
    bcast_S2x8x4096_S2x8x4096x1_0_1_2 bcast_S2x8x4096x1_S2x8x4096x4096_0_1_2_3
    (val_main_v2 (F := Ideal) x0 x1) (val_main_cst_0 (F := Ideal)) (val_main_cst_1 (F := Ideal)) (val_main_cst_2 (F := Ideal))
    ofBits_ninf ofBits_ninf Ideal.ofBits_zero_f32 b h i k

/-! ## The reference is G -/

/-- THE REFERENCE SIDE: on arguments whose entries are all real numbers, the reference's result is G. -/
theorem ref_eq (x0 x1 : (⟨Cert.ReferenceIdeal.S2x8x4096x64, .f32⟩ : BufTy).Contents (Elt Ideal))
    (x2 : (⟨Cert.ReferenceIdeal.S2x4096x8x64, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    Cert.ReferenceIdeal.Read.val_main_v15 (F := Ideal) x0 x1 x2 = Cert.Attn.G x0 x1 x2 := by
  funext idx
  obtain ⟨b, h, i, e, rfl⟩ : ∃ (b : Fin 2) (h : Fin 8) (i : Fin 4096) (e : Fin 64), idx = ix4 b h i e :=
    ⟨idx 0, idx 1, idx 2, idx 3, eq_ix4 idx⟩
  rw [val_main_v15_apply, Cert.Attn.G_apply, ← softmax_attn (by decide)]
  refine Finset.sum_congr rfl fun k _ => ?_
  rw [lidx_v15, weights_apply, val_main_v14_apply, ridx_v15, coe_toReal_of_real _ (h2 _)]
  simp only [score_apply x0 x1 h0 h1]

end Cert.Attn.RefSide

end
-- ==== Proof.KernelSpec.lean ====
/-
  What the kernel's region computes, stated on the arrays it finds.

  With the queries, keys and values laid out [16, 4096, 64] (merged head g, position s, column d), the result block row
  (g, s) is the attention of query row (g, s) — scores (Σ_d Q g s d · K g p d) / D against every key position p — over
  column e of merged head g's values.  Scores and value columns are written as functions of a natural key position
  (zero past the last key) so that key tile i, local position j, is simply position 1024·i + j.
-/
import proofs.«168605_j77068893160143_2_alg».proof.Proof.Gen.KernelIdeal.Frame
import proofs.«168605_j77068893160143_2_alg».proof.Proof.AttnSpec
import Idealize.ShloMosaic.Lib.ValueIdx

noncomputable section

namespace Cert.KernelIdeal.Spec

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The query, key and value arrays the region finds, read as real numbers. -/
def Qr (g : Fin 16) (s : Fin 4096) (d : Fin 64) : ℝ := ((V m c main_v0 : S16x4096x64.Idx → EReal) (ix3 g s d)).toReal
def Kr (g : Fin 16) (s : Fin 4096) (d : Fin 64) : ℝ := ((V m c main_v2 : FVec Ideal S16x4096x64 .bf16) (ix3 g s d)).toReal
def Vr (g : Fin 16) (s : Fin 4096) (d : Fin 64) : ℝ := ((V m c main_v5 : FVec Ideal S16x4096x64 .bf16) (ix3 g s d)).toReal

/-- The scores of query row (g, s) against key position p. -/
def Srow (g : Fin 16) (s : Fin 4096) : ℕ → ℝ := fun p =>
  if h : p < 4096 then Cert.Attn.scoreR (Qr m c g s) (Kr m c g ⟨p, h⟩) else 0

/-- Column e of merged head g's values at key position p. -/
def Wcol (g : Fin 16) (e : Fin 64) : ℕ → ℝ := fun p => if h : p < 4096 then Vr m c g ⟨p, h⟩ e else 0

/-- The result at (g, s, e). -/
def G6fun (g : Fin 16) (s : Fin 4096) (e : Fin 64) : EReal :=
  ((Cert.Attn.attnR (fun k : Fin 4096 => Srow m c g s k.val) (fun k : Fin 4096 => Wcol m c g e k.val) : ℝ) : EReal)

/-- The result array of the region. -/
def G6 : S16x4096x64.Idx → EReal := fun i => G6fun m c (i 0) (i 1) (i 2)

theorem G6_apply (g : Fin 16) (s : Fin 4096) (e : Fin 64) : G6 m c (ix3 g s e) = G6fun m c g s e := rfl

/-- The three arrays the region finds hold real numbers. -/
def RealArrays : Prop :=
  (∀ i, ∃ x : ℝ, (V m c main_v0 : S16x4096x64.Idx → EReal) i = (x : EReal))
  ∧ (∀ i, ∃ x : ℝ, (V m c main_v2 : FVec Ideal S16x4096x64 .bf16) i = (x : EReal))
  ∧ (∀ i, ∃ x : ℝ, (V m c main_v5 : FVec Ideal S16x4096x64 .bf16) i = (x : EReal))

end Cert.KernelIdeal.Spec

end
-- ==== Proof.Blocks.lean ====
/-
  The arrays the kernel's region finds, and the blocks its windows read.

  Before the region the host lays the queries and keys out as [16, 4096, 64] (batch and head merged, g = 8·b + h) and the
  values, given as [batch, key, head, column], as [16, 4096, 64] too (the two middle axes swapped, then batch and head
  merged); a change of float format is the identity on the extended reals.  At grid point t — query tile (t / 4) % 2 of
  merged head t / 8, key tile t % 4 — the query window reads rows 2048·((t / 4) % 2) + r and the key and value windows
  read rows 1024·(t % 4) + j of merged head t / 8.
-/
import proofs.«168605_j77068893160143_2_alg».proof.Proof.Gen.KernelIdeal.Frame
import proofs.«168605_j77068893160143_2_alg».proof.Proof.LibRank4Layout
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Batch and head merged: entry (g, s, d) of the result is entry (b, h, s, d) of the source, g = 8·b + h. -/
theorem mergeHeads_apply {α : Type} (v : S2x8x4096x64.Idx → α) (h : S2x8x4096x64.ShapeCasts S16x4096x64)
    (g : Fin 16) (s : Fin 4096) (d : Fin 64) (b : Fin 2) (hd : Fin 8) (hg : g.val = b.val * 8 + hd.val) :
    shapeCast S16x4096x64 v h (ix3 g s d) = v (ix4 b hd s d) := by
  refine shapeCast_apply v h (ix3 g s d) (ix4 b hd s d) ?_
  rw [Shape.rowMajor_val_three, Shape.rowMajor_val_four]
  show ((b.val * 8 + hd.val) * 4096 + s.val) * 64 + d.val = (g.val * 4096 + s.val) * 64 + d.val
  rw [hg]

/-- The query array as the region finds it. -/
theorem Vq_eq (c : Dev nD) : (V m c main_v0 : S16x4096x64.Idx → EReal)
    = shapeCast S16x4096x64 (m ((c : Thread nD τ).loc main_arg0)) shapeCasts_S2x8x4096x64_S16x4096x64 := by
  show StableHlo.after hostOps0 (fun b => m (c, b)) (Proc.devRef .tc main_v0) = _
  after_results
  rfl

/-- The key array as the region finds it. -/
theorem Vk_eq (c : Dev nD) : (V m c main_v2 : FVec Ideal S16x4096x64 .bf16)
    = (truncf (F := Ideal) .bf16 (shapeCast S16x4096x64 (m ((c : Thread nD τ).loc main_arg1)) shapeCasts_S2x8x4096x64_S16x4096x64 : FVec Ideal S16x4096x64 .f32) bitsLt_bf16_f32 : FVec Ideal S16x4096x64 .bf16) := by
  show StableHlo.after hostOps0 (fun b => m (c, b)) (Proc.devRef .tc main_v2) = _
  after_results
  rfl

/-- The value array as the region finds it. -/
theorem Vv_eq (c : Dev nD) : (V m c main_v5 : FVec Ideal S16x4096x64 .bf16)
    = (truncf (F := Ideal) .bf16 (shapeCast S16x4096x64 (transpose S2x8x4096x64 [0, 2, 1, 3] (m ((c : Thread nD τ).loc main_arg2))
        transposes_S2x4096x8x64_S2x8x4096x64_0_2_1_3) shapeCasts_S2x8x4096x64_S16x4096x64 : FVec Ideal S16x4096x64 .f32) bitsLt_bf16_f32 : FVec Ideal S16x4096x64 .bf16) := by
  show StableHlo.after hostOps0 (fun b => m (c, b)) (Proc.devRef .tc main_v5) = _
  after_results
  rfl

/-! ## Reading the arrays at an index -/

/-- The query array at (8·b + h, s, d) is the queries' entry (b, h, s, d). -/
theorem Vq_apply (c : Dev nD) (g : Fin 16) (s : Fin 4096) (d : Fin 64) (b : Fin 2) (hd : Fin 8) (hg : g.val = b.val * 8 + hd.val) :
    (V m c main_v0 : S16x4096x64.Idx → EReal) (ix3 g s d) = m ((c : Thread nD τ).loc main_arg0) (ix4 b hd s d) := by
  rw [Vq_eq]
  exact mergeHeads_apply _ _ g s d b hd hg

/-- The key array at (8·b + h, s, d) is the keys' entry (b, h, s, d). -/
theorem Vk_apply (c : Dev nD) (g : Fin 16) (s : Fin 4096) (d : Fin 64) (b : Fin 2) (hd : Fin 8) (hg : g.val = b.val * 8 + hd.val) :
    (V m c main_v2 : FVec Ideal S16x4096x64 .bf16) (ix3 g s d) = m ((c : Thread nD τ).loc main_arg1) (ix4 b hd s d) := by
  rw [Vk_eq]
  exact mergeHeads_apply _ _ g s d b hd hg

/-- The value array at (8·b + h, s, d) is the values' entry (b, s, h, d). -/
theorem Vv_apply (c : Dev nD) (g : Fin 16) (s : Fin 4096) (d : Fin 64) (b : Fin 2) (hd : Fin 8) (hg : g.val = b.val * 8 + hd.val) :
    (V m c main_v5 : FVec Ideal S16x4096x64 .bf16) (ix3 g s d) = m ((c : Thread nD τ).loc main_arg2) (ix4 b s hd d) := by
  rw [Vv_eq]
  show shapeCast S16x4096x64 (transpose S2x8x4096x64 [0, 2, 1, 3] (m ((c : Thread nD τ).loc main_arg2))
      transposes_S2x4096x8x64_S2x8x4096x64_0_2_1_3) shapeCasts_S2x8x4096x64_S16x4096x64 (ix3 g s d) = _
  rw [mergeHeads_apply _ _ g s d b hd hg]
  exact Cert.Lib.Rank4Layout.swapMiddle_apply _ _ b hd s d

/-! ## The windows' block indices, decided over the grid -/

theorem idx_q : ∀ t : Fin cfg0.N, win0_0.index t 0 = t.val / 8 ∧ win0_0.index t 1 = (t.val / 4) % 2 ∧ win0_0.index t 2 = 0 :=
  (by decide +kernel : ∀ t : Fin grid0.N, win0_0.index t 0 = t.val / 8 ∧ win0_0.index t 1 = (t.val / 4) % 2 ∧ win0_0.index t 2 = 0)

theorem idx_k : ∀ t : Fin cfg0.N, win0_1.index t 0 = t.val / 8 ∧ win0_1.index t 1 = t.val % 4 ∧ win0_1.index t 2 = 0 :=
  (by decide +kernel : ∀ t : Fin grid0.N, win0_1.index t 0 = t.val / 8 ∧ win0_1.index t 1 = t.val % 4 ∧ win0_1.index t 2 = 0)

theorem idx_v : ∀ t : Fin cfg0.N, win0_2.index t 0 = t.val / 8 ∧ win0_2.index t 1 = t.val % 4 ∧ win0_2.index t 2 = 0 :=
  (by decide +kernel : ∀ t : Fin grid0.N, win0_2.index t 0 = t.val / 8 ∧ win0_2.index t 1 = t.val % 4 ∧ win0_2.index t 2 = 0)

theorem idx_o : ∀ t : Fin cfg0.N, win0_3.index t 0 = t.val / 8 ∧ win0_3.index t 1 = (t.val / 4) % 2 ∧ win0_3.index t 2 = 0 :=
  (by decide +kernel : ∀ t : Fin grid0.N, win0_3.index t 0 = t.val / 8 ∧ win0_3.index t 1 = (t.val / 4) % 2 ∧ win0_3.index t 2 = 0)

/-! ## The blocks the windows read -/

/-- Row r of the query block at point t is row 2048·((t / 4) % 2) + r of merged head t / 8. -/
theorem qblk_apply (c : Dev nD) (t : Fin cfg0.N) (r : Fin 2048) (d : Fin 64) (g : Fin 16) (s : Fin 4096)
    (hg : g.val = t.val / 8) (hs : s.val = 2048 * ((t.val / 4) % 2) + r.val) :
    (iblk m c 0 t : Vec Ideal S1x2048x64 .f32) (ix3 0 r d) = (V m c main_v0 : S16x4096x64.Idx → EReal) (ix3 g s d) := by
  obtain ⟨h0, h1, h2⟩ := idx_q t
  unfold iblk
  rw [View.read_apply]
  show V m c main_v0 _ = V m c main_v0 _
  refine congrArg (V m c main_v0) (funext fun a => Fin.ext ?_)
  match a with
  | ⟨0, _⟩ => show win0_0.index t 0 * 1 + 1 * 0 = g.val; rw [h0, hg]; omega
  | ⟨1, _⟩ => show win0_0.index t 1 * 2048 + 1 * r.val = s.val; rw [h1, hs]; omega
  | ⟨2, _⟩ => show win0_0.index t 2 * 64 + 1 * d.val = d.val; rw [h2]; omega

/-- Row j of the key block at point t is row 1024·(t % 4) + j of merged head t / 8. -/
theorem kblk_apply (c : Dev nD) (t : Fin cfg0.N) (j : Fin 1024) (d : Fin 64) (g : Fin 16) (s : Fin 4096)
    (hg : g.val = t.val / 8) (hs : s.val = 1024 * (t.val % 4) + j.val) :
    (iblk m c 1 t : Vec Ideal S1x1024x64 .bf16) (ix3 0 j d) = (V m c main_v2 : FVec Ideal S16x4096x64 .bf16) (ix3 g s d) := by
  obtain ⟨h0, h1, h2⟩ := idx_k t
  unfold iblk
  rw [View.read_apply]
  show V m c main_v2 _ = V m c main_v2 _
  refine congrArg (V m c main_v2) (funext fun a => Fin.ext ?_)
  match a with
  | ⟨0, _⟩ => show win0_1.index t 0 * 1 + 1 * 0 = g.val; rw [h0, hg]; omega
  | ⟨1, _⟩ => show win0_1.index t 1 * 1024 + 1 * j.val = s.val; rw [h1, hs]; omega
  | ⟨2, _⟩ => show win0_1.index t 2 * 64 + 1 * d.val = d.val; rw [h2]; omega

/-- Row j of the value block at point t is row 1024·(t % 4) + j of merged head t / 8. -/
theorem vblk_apply (c : Dev nD) (t : Fin cfg0.N) (j : Fin 1024) (d : Fin 64) (g : Fin 16) (s : Fin 4096)
    (hg : g.val = t.val / 8) (hs : s.val = 1024 * (t.val % 4) + j.val) :
    (iblk m c 2 t : Vec Ideal S1x1024x64 .bf16) (ix3 0 j d) = (V m c main_v5 : FVec Ideal S16x4096x64 .bf16) (ix3 g s d) := by
  obtain ⟨h0, h1, h2⟩ := idx_v t
  unfold iblk
  rw [View.read_apply]
  show V m c main_v5 _ = V m c main_v5 _
  refine congrArg (V m c main_v5) (funext fun a => Fin.ext ?_)
  match a with
  | ⟨0, _⟩ => show win0_2.index t 0 * 1 + 1 * 0 = g.val; rw [h0, hg]; omega
  | ⟨1, _⟩ => show win0_2.index t 1 * 1024 + 1 * j.val = s.val; rw [h1, hs]; omega
  | ⟨2, _⟩ => show win0_2.index t 2 * 64 + 1 * d.val = d.val; rw [h2]; omega

end Cert.KernelIdeal.Blocks

end
-- ==== Proof.KernelBridge.lean ====
/-
  The kernel's layout against the specification's.

  The region works on the queries, keys and values laid out [16, 4096, 64], batch b and head h merged into
  g = 8·b + h (the values, given as [batch, key, head, column], with their two middle axes swapped first),
  and its result is laid out the same way and split back into [2, 8, 4096, 64] afterwards.  Entry (g, s, d)
  of each array the region finds is an entry of the corresponding argument, so (i) the three arrays hold real
  numbers when the arguments do, and (ii) the region's result, split back, is the attention of every query
  row (b, h, i) against column e of head h's values, entry by entry: the scores and the value columns of
  merged head 8·b + h are those of batch b, head h.
-/
import proofs.«168605_j77068893160143_2_alg».proof.Proof.Gen.KernelIdeal.Frame
import proofs.«168605_j77068893160143_2_alg».proof.Proof.KernelSpec
import proofs.«168605_j77068893160143_2_alg».proof.Proof.Blocks
import proofs.«168605_j77068893160143_2_alg».proof.Proof.AttnSpec
import proofs.«168605_j77068893160143_2_alg».proof.Proof.Finite

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Every merged head is 8·b + h for a batch b and a head h. -/
theorem split_head (g : Fin 16) : ∃ (b : Fin 2) (hd : Fin 8), g.val = b.val * 8 + hd.val :=
  ⟨⟨g.val / 8, by have := g.isLt; omega⟩, ⟨g.val % 8, by omega⟩, by
    show g.val = g.val / 8 * 8 + g.val % 8
    omega⟩

/-- Every index of [16, 4096, 64] is (g, s, d). -/
theorem exists_ix3 (i : S16x4096x64.Idx) : ∃ (g : Fin 16) (s : Fin 4096) (d : Fin 64), i = ix3 g s d :=
  ⟨i 0, i 1, i 2, eq_ix3 i⟩

/-- Every index of [2, 8, 4096, 64] is (b, h, i, e). -/
theorem exists_ix4 (j : S2x8x4096x64.Idx) : ∃ (b : Fin 2) (h : Fin 8) (i : Fin 4096) (e : Fin 64), j = ix4 b h i e :=
  ⟨j 0, j 1, j 2, j 3, eq_ix4 j⟩

/-- Batch and head split back: entry (b, h, s, d) of the result is entry (g, s, d) of the source, g = 8·b + h. -/
theorem splitHeads_apply {α : Type} (v : S16x4096x64.Idx → α) (h : S16x4096x64.ShapeCasts S2x8x4096x64)
    (g : Fin 16) (s : Fin 4096) (d : Fin 64) (b : Fin 2) (hd : Fin 8) (hg : g.val = b.val * 8 + hd.val) :
    shapeCast S2x8x4096x64 v h (ix4 b hd s d) = v (ix3 g s d) := by
  refine shapeCast_apply v h (ix4 b hd s d) (ix3 g s d) ?_
  rw [Shape.rowMajor_val_three, Shape.rowMajor_val_four]
  show (g.val * 4096 + s.val) * 64 + d.val = ((b.val * 8 + hd.val) * 4096 + s.val) * 64 + d.val
  rw [hg]

/-- THE ARRAYS THE REGION FINDS HOLD REAL NUMBERS when the precondition holds of the arguments. -/
theorem real_arrays [Cert.Pre_finite_inputs.Facts] (c : Dev nD)
    (h : Cert.Pre_finite_inputs.fn (F := Ideal) (m ((c.tc : Thread nD τ).loc main_arg0)) (m ((c.tc : Thread nD τ).loc main_arg1)) (m ((c.tc : Thread nD τ).loc main_arg2)) = (fun _ => 1#1)) :
    Spec.RealArrays m c := by
  obtain ⟨h0, h1, h2⟩ := Cert.Attn.Finite.reals_of_pre _ _ _ h
  refine ⟨fun i => ?_, fun i => ?_, fun i => ?_⟩
  · obtain ⟨g, s, d, rfl⟩ := exists_ix3 i
    obtain ⟨b, hd, hg⟩ := split_head g
    rw [Blocks.Vq_apply m c g s d b hd hg]
    exact h0 _
  · obtain ⟨g, s, d, rfl⟩ := exists_ix3 i
    obtain ⟨b, hd, hg⟩ := split_head g
    rw [Blocks.Vk_apply m c g s d b hd hg]
    exact h1 _
  · obtain ⟨g, s, d, rfl⟩ := exists_ix3 i
    obtain ⟨b, hd, hg⟩ := split_head g
    rw [Blocks.Vv_apply m c g s d b hd hg]
    exact h2 _

/-- THE REGION'S RESULT, SPLIT BACK INTO BATCH AND HEAD, IS THE SPECIFICATION'S RESULT on the arguments. -/
theorem G6_reshape (c : Dev nD) :
    shapeCast S2x8x4096x64 (Spec.G6 m c) shapeCasts_S16x4096x64_S2x8x4096x64
      = Cert.Attn.G (m ((c.tc : Thread nD τ).loc main_arg0)) (m ((c.tc : Thread nD τ).loc main_arg1)) (m ((c.tc : Thread nD τ).loc main_arg2)) := by
  funext idx
  obtain ⟨b, h, i, e, rfl⟩ := exists_ix4 idx
  have hlt : b.val * 8 + h.val < 16 := by have := b.isLt; have := h.isLt; omega
  have hg : (⟨b.val * 8 + h.val, hlt⟩ : Fin 16).val = b.val * 8 + h.val := rfl
  generalize (⟨b.val * 8 + h.val, hlt⟩ : Fin 16) = g at hg
  rw [splitHeads_apply (Spec.G6 m c) _ g i e b h hg, Spec.G6_apply, Cert.Attn.G_apply]
  -- the queries, keys and values of merged head g are those of batch b, head h
  have hQ : Spec.Qr m c g i = fun d => (m ((c.tc : Thread nD τ).loc main_arg0) (ix4 b h i d)).toReal := by
    funext d
    unfold Spec.Qr
    rw [Blocks.Vq_apply m c g i d b h hg]
  have hK : ∀ k : Fin 4096, Spec.Kr m c g k = fun d => (m ((c.tc : Thread nD τ).loc main_arg1) (ix4 b h k d)).toReal := by
    intro k
    funext d
    unfold Spec.Kr
    rw [Blocks.Vk_apply m c g k d b h hg]
  have hS : (fun k : Fin 4096 => Spec.Srow m c g i k.val)
      = Cert.Attn.rowScore (m ((c.tc : Thread nD τ).loc main_arg0)) (m ((c.tc : Thread nD τ).loc main_arg1)) b h i := by
    funext k
    have e1 : Spec.Srow m c g i k.val = Cert.Attn.scoreR (Spec.Qr m c g i) (Spec.Kr m c g k) := by
      unfold Spec.Srow
      exact dif_pos k.isLt
    rw [e1, hQ, hK k]
    rfl
  have hW : (fun k : Fin 4096 => Spec.Wcol m c g e k.val)
      = fun j : Fin 4096 => (m ((c.tc : Thread nD τ).loc main_arg2) (ix4 b j h e)).toReal := by
    funext k
    have e1 : Spec.Wcol m c g e k.val = Spec.Vr m c g k e := by
      unfold Spec.Wcol
      exact dif_pos k.isLt
    rw [e1]
    unfold Spec.Vr
    rw [Blocks.Vv_apply m c g k e b h hg]
  unfold Spec.G6fun
  rw [hS, hW]

end Cert.KernelIdeal.Bridge

end
-- ==== Proof.AttnAlgebra.lean ====
/-
  The algebra of the online-softmax pass over the key tiles.

  The pass carries (m, l, a) with  l · e^m = Σ e^{s j}  and  a · e^m = Σ e^{s j} · w j  over the keys
  seen so far.  One more tile replaces m by m' = max m (tile maximum), rescales l and a by e^{m − m'}
  and adds the tile's terms e^{s j − m'} (times w j for the numerator); multiplying through by e^{m'}
  gives back the plain sums, because e^{x − m'} · e^{m'} = e^x.  After the four tiles the quotient
  a / l is (a · e^m) / (l · e^m): the attention of the row.  All of this is arithmetic of real numbers;
  the extended reals enter only at the start state, whose maximum is −∞ and whose rescaled terms are
  products with 0.
-/
import proofs.«168605_j77068893160143_2_alg».proof.Proof.AttnSpec

noncomputable section

open scoped BigOperators

namespace Cert.Attn

open Idealize.ShloMosaic

/-! ### Coercions and exponentials -/

/-- The coercion of a finite real sum is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- e^{x − y} · e^y = e^x. -/
theorem exp_sub_mul_exp (x y : ℝ) : Real.exp (x - y) * Real.exp y = Real.exp x := by
  rw [← Real.exp_add, sub_add_cancel]

/-- The exponential of a difference of two reals, computed on the extended reals. -/
theorem exp_shift_coe (x y : ℝ) :
    Ideal.exp ((x : EReal) - (y : EReal)) = ((Real.exp (x - y) : ℝ) : EReal) := by
  rw [← EReal.coe_sub, Ideal.exp_coe]

/-! ### The maximum of a tile is a real number -/

/-- A fold of max from −∞ over coerced reals is −∞ on the empty set and a real number otherwise. -/
theorem fold_max_bot_or_real {ι : Type*} (g : ι → ℝ) (s : Finset ι) :
    (s = ∅ ∧ s.fold max (⊥ : EReal) (fun j => ((g j : ℝ) : EReal)) = ⊥) ∨
      ∃ t : ℝ, s.fold max (⊥ : EReal) (fun j => ((g j : ℝ) : EReal)) = (t : EReal) := by
  classical
  induction s using Finset.induction_on with
  | empty => exact Or.inl ⟨rfl, Finset.fold_empty⟩
  | insert a s ha ih =>
    right
    rw [Finset.fold_insert ha]
    rcases ih with ⟨_, h⟩ | ⟨t, h⟩
    · exact ⟨g a, by rw [h]; exact max_eq_left bot_le⟩
    · rw [h]
      rcases le_total (g a) t with hle | hle
      · exact ⟨t, max_eq_right (EReal.coe_le_coe_iff.mpr hle)⟩
      · exact ⟨g a, max_eq_left (EReal.coe_le_coe_iff.mpr hle)⟩

/-- The maximum of a tile's scores is a real number. -/
theorem tileMax_real (S : ℕ → ℝ) (n : ℕ) : ∃ t : ℝ, tileMax S n = (t : EReal) := by
  rcases fold_max_bot_or_real (fun j : Fin 1024 => S (1024 * n + j.val)) Finset.univ with ⟨h, _⟩ | h
  · exact absurd h Finset.univ_nonempty.ne_empty
  · exact h

/-! ### One tile -/

/-- The step with the rescaled old terms already known to be reals cl, ca whose products with e^{m'}
    are the sums over the tiles seen: adding tile n's terms gives the sums over n + 1 tiles. -/
theorem step_core (S W : ℕ → ℝ) (n : ℕ) (m' cl ca : ℝ)
    (hl : cl * Real.exp m' = ∑ i ∈ Finset.range n, tileDen S i)
    (ha : ca * Real.exp m' = ∑ i ∈ Finset.range n, tileNum S W i) :
    Inv S W (n + 1) (m' : EReal)
      ((cl : EReal) + ∑ j : Fin 1024, Ideal.exp (((S (1024 * n + j.val) : ℝ) : EReal) - (m' : EReal)))
      ((ca : EReal) + ∑ j : Fin 1024,
        Ideal.exp (((S (1024 * n + j.val) : ℝ) : EReal) - (m' : EReal)) * ((W (1024 * n + j.val) : ℝ) : EReal)) := by
  refine Or.inr ⟨m', cl + ∑ j : Fin 1024, Real.exp (S (1024 * n + j.val) - m'),
    ca + ∑ j : Fin 1024, Real.exp (S (1024 * n + j.val) - m') * W (1024 * n + j.val), rfl, ?_, ?_, ?_, ?_⟩
  · rw [EReal.coe_add, coe_sum]
    simp only [exp_shift_coe]
  · rw [EReal.coe_add, coe_sum]
    simp only [exp_shift_coe, EReal.coe_mul]
  · rw [Finset.sum_range_succ, ← hl, add_mul, Finset.sum_mul]
    refine congrArg (cl * Real.exp m' + ·) ?_
    unfold tileDen
    exact Finset.sum_congr rfl fun j _ => exp_sub_mul_exp _ _
  · rw [Finset.sum_range_succ, ← ha, add_mul, Finset.sum_mul]
    refine congrArg (ca * Real.exp m' + ·) ?_
    unfold tileNum
    refine Finset.sum_congr rfl fun j _ => ?_
    rw [mul_right_comm, exp_sub_mul_exp]

/-- The start state. -/
theorem inv_zero (S W : ℕ → ℝ) : Inv S W 0 ⊥ 0 0 := Or.inl ⟨rfl, rfl, rfl, rfl⟩

/-- One tile keeps the invariant. -/
theorem inv_step (S W : ℕ → ℝ) (n : ℕ) (m l a : EReal) (h : Inv S W n m l a) :
    Inv S W (n + 1) (newM S n m) (newL S n m l) (newA S W n m a) := by
  obtain ⟨t, ht⟩ := tileMax_real S n
  rcases h with ⟨hn, hm, hl, ha⟩ | ⟨mr, lr, ar, hm, hl, ha, hL, hA⟩
  · -- from the start state: the old terms are products with 0
    subst hn hm hl ha
    have hM : newM S 0 ⊥ = (t : EReal) := by
      rw [newM, ht]; exact max_eq_right bot_le
    unfold newL newA
    simp only [hM, mul_zero]
    have key := step_core S W 0 t 0 0 (by simp) (by simp)
    rw [EReal.coe_zero] at key
    exact key
  · -- from a real state: e^{m − m'} · l · e^{m'} = l · e^m
    subst hm hl ha
    obtain ⟨m', hM⟩ : ∃ m' : ℝ, newM S n (mr : EReal) = (m' : EReal) := by
      rw [newM, ht]
      rcases le_total mr t with hle | hle
      · exact ⟨t, max_eq_right (EReal.coe_le_coe_iff.mpr hle)⟩
      · exact ⟨mr, max_eq_left (EReal.coe_le_coe_iff.mpr hle)⟩
    unfold newL newA
    simp only [hM]
    rw [exp_shift_coe mr m', ← EReal.coe_mul, ← EReal.coe_mul]
    refine step_core S W n m' _ _ ?_ ?_
    · rw [mul_right_comm, exp_sub_mul_exp, mul_comm]; exact hL
    · rw [mul_right_comm, exp_sub_mul_exp, mul_comm]; exact hA

/-! ### After the four tiles -/

/-- Summing tile by tile is summing over the first 1024 · n keys. -/
theorem sum_tiles (f : ℕ → ℝ) (n : ℕ) :
    ∑ i ∈ Finset.range n, ∑ j : Fin 1024, f (1024 * i + j.val) = ∑ k ∈ Finset.range (1024 * n), f k := by
  induction n with
  | zero => simp
  | succ n ih =>
    rw [Finset.sum_range_succ, ih, Nat.mul_succ, Finset.sum_range_add,
      Fin.sum_univ_eq_sum_range (fun j => f (1024 * n + j)) 1024]

/-- The four tiles are the 4096 keys. -/
theorem sum_tiles_four (f : ℕ → ℝ) :
    ∑ i ∈ Finset.range 4, ∑ j : Fin 1024, f (1024 * i + j.val) = ∑ k : Fin 4096, f k.val := by
  have e : 1024 * 4 = 4096 := by norm_num
  rw [sum_tiles, e, Fin.sum_univ_eq_sum_range f 4096]

/-- After the four tiles the quotient a / l is the attention of the row. -/
theorem inv_final (S W : ℕ → ℝ) (m l a : EReal) (h : Inv S W 4 m l a) :
    Ideal.div a l = ((attnR (fun k : Fin 4096 => S k.val) (fun k : Fin 4096 => W k.val) : ℝ) : EReal) := by
  rcases h with ⟨h4, _⟩ | ⟨mr, lr, ar, hm, hl, ha, hL, hA⟩
  · exact absurd h4 (by norm_num)
  · subst hl ha
    have hden : ∑ i ∈ Finset.range 4, tileDen S i = ∑ k : Fin 4096, Real.exp (S k.val) :=
      sum_tiles_four (fun k => Real.exp (S k))
    have hnum : ∑ i ∈ Finset.range 4, tileNum S W i = ∑ k : Fin 4096, Real.exp (S k.val) * W k.val :=
      sum_tiles_four (fun k => Real.exp (S k) * W k)
    have hpos : 0 < ∑ k : Fin 4096, Real.exp (S k.val) :=
      Finset.sum_pos (fun k _ => Real.exp_pos _) Finset.univ_nonempty
    have hlr : lr ≠ 0 := by
      intro h0
      rw [h0, zero_mul, hden] at hL
      exact hpos.ne hL
    rw [Ideal.div_coe hlr, ← EReal.coe_mul]
    refine congrArg (fun r : ℝ => (r : EReal)) ?_
    show ar * (1 / lr) = (∑ k : Fin 4096, Real.exp (S k.val) * W k.val) / (∑ k : Fin 4096, Real.exp (S k.val))
    rw [← hden, ← hnum, ← hL, ← hA, mul_div_mul_right _ _ (Real.exp_ne_zero mr), mul_one_div]

/-! ### The scores -/

/-- Scaling the query by the reciprocal of the divisor before the dot product is dividing the dot
    product by the divisor. -/
theorem score_kernel (Q K : Fin 64 → ℝ) :
    (∑ d : Fin 64, ((Q d : EReal) * (cinv : EReal)) * (K d : EReal)) = ((scoreR Q K : ℝ) : EReal) := by
  have h : scoreR Q K = ∑ d : Fin 64, Q d * cinv * K d := by
    unfold scoreR
    rw [Finset.sum_div]
    refine Finset.sum_congr rfl fun d _ => ?_
    unfold cinv D
    ring
  rw [h, coe_sum]
  refine Finset.sum_congr rfl fun d _ => ?_
  rw [EReal.coe_mul, EReal.coe_mul]

end Cert.Attn

end
-- ==== Proof.LibAttentionDots.lean ====
/-
  Contraction sums of the matrix products of an attention layer, for any sizes, on the extended reals.

  * A rank-2 product whose right operand is contracted on its LAST axis, `[A,K] × [B,K] → [A,B]`: at output index
    (p, q) the sum over k of L (p, k) * R (q, k); with it a matmul into the zero accumulator and a host dot_general.
  * A projection `[B,S,D] × [N,D] → [B,S,N]` (einsum `bsd,nd→bsn`): at (b, s, n) the sum over k of
    L (b, s, k) * R (n, k).
  * The scores `[B,H,Q,D] × [B,H,K,D] → [B,H,Q,K]` with batch axes 0 and 1 (einsum `bhqd,bhkd→bhqk`): at
    (b, h, q, k) the sum over d of L (b, h, q, d) * R (b, h, k, d).
  * The weighted values `[B,H,Q,K] × [B,H,K,D] → [B,H,Q,D]` with batch axes 0 and 1 (einsum `bhqk,bhkd→bhqd`): at
    (b, h, q, d) the sum over k of L (b, h, q, k) * R (b, h, k, d).

  Each takes the dimension numbers as a record with six list hypotheses (closed by `rfl` on a printed record).
-/
import Idealize.ShloMosaic.PureOps.Ideal.Laws
import Idealize.ShloMosaic.Lib.ValueIdx

noncomputable section

open scoped BigOperators

namespace Cert.Lib.AttentionDots

open Idealize.ShloMosaic Idealize.ShloMosaic.ValueIdx

/-! ## Rank 2, the right operand contracted on its last axis -/

theorem trhs_idx {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 q k := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- The contraction sum at (p, q): the sum over k of L (p, k) * R (q, k). -/
theorem trhs_sum {A K B : Nat} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (L : (⟨2, ![A, K]⟩ : Shape).Idx → EReal) (R : (⟨2, ![B, K]⟩ : Shape).Idx → EReal) (p : Fin A) (q : Fin B) :
    ∑ κ : d.contr.Idx, L (d.lhsIdx (ix2 p q) κ) * R (d.rhsIdx (ix2 p q) κ) = ∑ k : Fin K, L (ix2 p k) * R (ix2 q k) := by
  obtain ⟨hr, hs, h⟩ := trhs_idx d hlc hrc hln hrn hlb hrb
  rw [← Equiv.sum_comp (contrEquiv1 d K hr hs).symm]
  exact Finset.sum_congr rfl fun k _ => by rw [(h p q k).1, (h p q k).2]

/-- A matmul of these dimension numbers into the zero accumulator, read at (p, q). -/
theorem matmul_zero_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q)
      = ∑ k : Fin K, lhs (ix2 p k) * rhs (ix2 q k) :=
  (Ideal.matmul_constant_zero_apply d prec lhs rhs (ix2 p q)).trans (trhs_sum d hlc hrc hln hrn hlb hrb lhs rhs p q)

/-- A host dot_general of these dimension numbers, read at (p, q). -/
theorem dotGeneral_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![A, K]⟩ φ₁)
    (rhs : FVec Ideal ⟨2, ![B, K]⟩ φ₂) (p : Fin A) (q : Fin B) :
    FloatOps.dotGeneral d prec sched lhs rhs (ix2 p q) = ∑ k : Fin K, lhs (ix2 p k) * rhs (ix2 q k) :=
  (Ideal.dotGeneral_apply d prec sched lhs rhs (ix2 p q)).trans (trhs_sum d hlc hrc hln hrn hlb hrb lhs rhs p q)

/-! ## The projection `bsd,nd→bsn` -/

theorem proj_idx {B S D N : Nat} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = []) :
    ∃ (hr : d.contr.rank = 1) (hs : d.contr.size ⟨0, by omega⟩ = D), ∀ (b : Fin B) (s : Fin S) (n : Fin N) (k : Fin D),
      d.lhsIdx (ix3 b s n) ((contrEquiv1 d D hr hs).symm k) = ix3 b s k ∧
      d.rhsIdx (ix3 b s n) ((contrEquiv1 d D hr hs).symm k) = ix2 n k := by
  obtain ⟨lc, rc, ln, rn, lb, rb, wf⟩ := d
  simp only at hlc hrc hln hrn hlb hrb
  subst hlc hrc hln hrn hlb hrb
  refine ⟨rfl, rfl, fun b s n k => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl

/-- A host dot_general `bsd,nd→bsn`, read at (b, s, n): the sum over k of L (b, s, k) * R (n, k). -/
theorem dotGeneral_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![B, S, D]⟩ φ₁)
    (rhs : FVec Ideal ⟨2, ![N, D]⟩ φ₂) (b : Fin B) (s : Fin S) (n : Fin N) :
    FloatOps.dotGeneral d prec sched lhs rhs (ix3 b s n) = ∑ k : Fin D, lhs (ix3 b s k) * rhs (ix2 n k) := by
  obtain ⟨hr, hs, h⟩ := proj_idx d hlc hrc hln hrn hlb hrb
  refine (Ideal.dotGeneral_apply d prec sched lhs rhs (ix3 b s n)).trans ?_
  rw [← Equiv.sum_comp (contrEquiv1 d D hr hs).symm]
  exact Finset.sum_congr rfl fun k _ => by rw [(h b s n k).1, (h b s n k).2]

/-! ## The scores `bhqd,bhkd→bhqk` -/

theorem scores_idx {B H Q K D : Nat} (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1]) :
    ∃ (hr : d.contr.rank = 1) (hs : d.contr.size ⟨0, by omega⟩ = D),
      ∀ (b : Fin B) (h : Fin H) (q : Fin Q) (k : Fin K) (e : Fin D),
      d.lhsIdx (ix4 b h q k) ((contrEquiv1 d D hr hs).symm e) = ix4 b h q e ∧
      d.rhsIdx (ix4 b h q k) ((contrEquiv1 d D hr hs).symm e) = ix4 b h k e := by
  obtain ⟨lc, rc, ln, rn, lb, rb, wf⟩ := d
  simp only at hlc hrc hln hrn hlb hrb
  subst hlc hrc hln hrn hlb hrb
  refine ⟨rfl, rfl, fun b h q k e => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqd,bhkd→bhqk`, read at (b, h, q, k): the sum over e of L (b, h, q, e) * R (b, h, k, e). -/
theorem dotGeneral_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (sched : HostSchedule) (lhs : FVec Ideal ⟨4, ![B, H, Q, D]⟩ φ₁)
    (rhs : FVec Ideal ⟨4, ![B, H, K, D]⟩ φ₂) (b : Fin B) (h : Fin H) (q : Fin Q) (k : Fin K) :
    FloatOps.dotGeneral d prec sched lhs rhs (ix4 b h q k) = ∑ e : Fin D, lhs (ix4 b h q e) * rhs (ix4 b h k e) := by
  obtain ⟨hr, hs, hx⟩ := scores_idx d hlc hrc hln hrn hlb hrb
  refine (Ideal.dotGeneral_apply d prec sched lhs rhs (ix4 b h q k)).trans ?_
  rw [← Equiv.sum_comp (contrEquiv1 d D hr hs).symm]
  exact Finset.sum_congr rfl fun e _ => by rw [(hx b h q k e).1, (hx b h q k e).2]

/-! ## The weighted values `bhqk,bhkd→bhqd` -/

theorem values_idx {B H Q K D : Nat} (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1]) :
    ∃ (hr : d.contr.rank = 1) (hs : d.contr.size ⟨0, by omega⟩ = K),
      ∀ (b : Fin B) (h : Fin H) (q : Fin Q) (e : Fin D) (k : Fin K),
      d.lhsIdx (ix4 b h q e) ((contrEquiv1 d K hr hs).symm k) = ix4 b h q k ∧
      d.rhsIdx (ix4 b h q e) ((contrEquiv1 d K hr hs).symm k) = ix4 b h k e := by
  obtain ⟨lc, rc, ln, rn, lb, rb, wf⟩ := d
  simp only at hlc hrc hln hrn hlb hrb
  subst hlc hrc hln hrn hlb hrb
  refine ⟨rfl, rfl, fun b h q e k => ⟨?_, ?_⟩⟩
  · funext a
    match a with
    | ⟨0, _⟩ => exact Fin.ext rfl
    | ⟨1, _⟩ => exact Fin.ext rfl
    | ⟨2, _⟩ => exact Fin.ext rfl
    | ⟨3, _⟩ => exact Fin.ext rfl
  · funext a
    match a with
    | ⟨0, _⟩ => exact Fin.ext rfl
    | ⟨1, _⟩ => exact Fin.ext rfl
    | ⟨2, _⟩ => exact Fin.ext rfl
    | ⟨3, _⟩ => exact Fin.ext rfl

/-- A host dot_general `bhqk,bhkd→bhqd`, read at (b, h, q, e): the sum over k of L (b, h, q, k) * R (b, h, k, e). -/
theorem dotGeneral_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (sched : HostSchedule) (lhs : FVec Ideal ⟨4, ![B, H, Q, K]⟩ φ₁)
    (rhs : FVec Ideal ⟨4, ![B, H, K, D]⟩ φ₂) (b : Fin B) (h : Fin H) (q : Fin Q) (e : Fin D) :
    FloatOps.dotGeneral d prec sched lhs rhs (ix4 b h q e) = ∑ k : Fin K, lhs (ix4 b h q k) * rhs (ix4 b h k e) := by
  obtain ⟨hr, hs, hx⟩ := values_idx d hlc hrc hln hrn hlb hrb
  refine (Ideal.dotGeneral_apply d prec sched lhs rhs (ix4 b h q e)).trans ?_
  rw [← Equiv.sum_comp (contrEquiv1 d K hr hs).symm]
  exact Finset.sum_congr rfl fun k _ => by rw [(hx b h q e k).1, (hx b h q e k).2]

/-! ## The same, spelled as programs print them (`matmul`, `Host.dotGeneral`): the forms a rewrite finds -/

theorem matmul_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    matmul d prec lhs rhs (constant ⟨2, ![A, B]⟩ .f32 0x00000000#32) (ix2 p q) = ∑ k : Fin K, lhs (ix2 p k) * rhs (ix2 q k) :=
  matmul_zero_trhs d hlc hrc hln hrn hlb hrb prec lhs rhs p q

theorem hostDot_trhs {A K B : Nat} {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    Host.dotGeneral d prec lhs rhs (ix2 p q) = ∑ k : Fin K, lhs (ix2 p k) * rhs (ix2 q k) :=
  dotGeneral_trhs d hlc hrc hln hrn hlb hrb prec .single lhs rhs p q

theorem hostDot_proj {B S D N : Nat} {φ₁ φ₂ : FTy} (d : DotDims ⟨3, ![B, S, D]⟩ ⟨2, ![N, D]⟩ ⟨3, ![B, S, N]⟩)
    (hlc : d.lhsContracting = [2]) (hrc : d.rhsContracting = [1]) (hln : d.lhsNonContracting = [0, 1])
    (hrn : d.rhsNonContracting = [0]) (hlb : d.lhsBatch = []) (hrb : d.rhsBatch = [])
    (prec : Option ContractPrecision) (lhs : FVec Ideal ⟨3, ![B, S, D]⟩ φ₁) (rhs : FVec Ideal ⟨2, ![N, D]⟩ φ₂)
    (b : Fin B) (s : Fin S) (n : Fin N) :
    Host.dotGeneral d prec lhs rhs (ix3 b s n) = ∑ k : Fin D, lhs (ix3 b s k) * rhs (ix2 n k) :=
  dotGeneral_proj d hlc hrc hln hrn hlb hrb prec .single lhs rhs b s n

theorem hostDot_scores {B H Q K D : Nat} {φ₁ φ₂ : FTy}
    (d : DotDims ⟨4, ![B, H, Q, D]⟩ ⟨4, ![B, H, K, D]⟩ ⟨4, ![B, H, Q, K]⟩)
    (hlc : d.lhsContracting = [3]) (hrc : d.rhsContracting = [3]) (hln : d.lhsNonContracting = [2])
    (hrn : d.rhsNonContracting = [2]) (hlb : d.lhsBatch = [0, 1]) (hrb : d.rhsBatch = [0, 1])
    (prec : Option ContractPrecision) (lhs : FVec Ideal ⟨4, ![B, H, Q, D]⟩ φ₁) (rhs : FVec Ideal ⟨4, ![B, H, K, D]⟩ φ₂)
    (b : Fin B) (h : Fin H) (q : Fin Q) (k : Fin K) :
    Host.dotGeneral d prec lhs rhs (ix4 b h q k) = ∑ e : Fin D, lhs (ix4 b h q e) * rhs (ix4 b h k e) :=
  dotGeneral_scores d hlc hrc hln hrn hlb hrb prec .single lhs rhs b h q k

theorem hostDot_values {B H Q K D : Nat} {φ₁ φ₂ : FTy}
    (d : DotDims ⟨4, ![B, H, Q, K]⟩ ⟨4, ![B, H, K, D]⟩ ⟨4, ![B, H, Q, D]⟩)
    (hlc : d.lhsContracting = [3]) (hrc : d.rhsContracting = [2]) (hln : d.lhsNonContracting = [2])
    (hrn : d.rhsNonContracting = [3]) (hlb : d.lhsBatch = [0, 1]) (hrb : d.rhsBatch = [0, 1])
    (prec : Option ContractPrecision) (lhs : FVec Ideal ⟨4, ![B, H, Q, K]⟩ φ₁) (rhs : FVec Ideal ⟨4, ![B, H, K, D]⟩ φ₂)
    (b : Fin B) (h : Fin H) (q : Fin Q) (e : Fin D) :
    Host.dotGeneral d prec lhs rhs (ix4 b h q e) = ∑ k : Fin K, lhs (ix4 b h q k) * rhs (ix4 b h k e) :=
  dotGeneral_values d hlc hrc hln hrn hlb hrb prec .single lhs rhs b h q e

end Cert.Lib.AttentionDots

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.StepRead.lean ====
/-
  One step of the online-softmax pass, read entry by entry on the extended reals.

  The step takes a block of 2048 query rows, one tile of 1024 keys with their values, and the carried state
  (running maximum m, running denominator l, running numerator a).  Its scores are
  s (r, j) = Σ_d (q (r, d) · c) · k (j, d), with c the reciprocal of the softmax divisor; the new maximum of row r is
  max (m r) (max_j s (r, j)); the new denominator is e^{m r − m' r} · l r + Σ_j e^{s (r, j) − m' r}; the new numerator is
  e^{m r − m' r} · a (r, e) + Σ_j e^{s (r, j) − m' r} · v (j, e); and the output after the last tile is a (r, e) / l r.
  Before the first tile the state is (−∞, 0, 0).
-/
import proofs.«168605_j77068893160143_2_alg».proof.Proof.Gen.KernelIdeal.Skeleton
import proofs.«168605_j77068893160143_2_alg».proof.Proof.AttnSpec
import proofs.«168605_j77068893160143_2_alg».proof.Proof.LibAttentionDots
import proofs.«168605_j77068893160143_2_alg».proof.Proof.LibLastAxis
import proofs.«168605_j77068893160143_2_alg».proof.Proof.LibKeepdimsColumn
import Idealize.ShloMosaic.Lib.ValueLayout
import Idealize.ShloMosaic.PureOps.IdealRules

noncomputable section

open scoped BigOperators

namespace Cert.KernelIdeal.StepRead

open Cert.KernelIdeal Cert.KernelIdeal.Gen Idealize.ShloMosaic Idealize.ShloMosaic.ValueIdx

/-- The kernel's named scale denotes the reciprocal of the softmax divisor. -/
theorem scale_eq : Named.named (F := Ideal) κ "fold_c_524288_11863283" (φ := .f32) 0x3D3504F3#32 = ((Cert.Attn.cinv : ℝ) : EReal) :=
  IdealRules.named_const.ideal_named_scalar _ _ _ _ rfl

/-- The scaled score of query row r against key j of the tile. -/
def sc (q : Vec Ideal S1x2048x64 .f32) (k : Vec Ideal S1x1024x64 .bf16) (r : Fin 2048) (j : Fin 1024) : EReal :=
  ∑ d : Fin 64, (q (ix3 0 r d) * ((Cert.Attn.cinv : ℝ) : EReal)) * k (ix3 0 j d)

theorem pay8_apply (q : Vec Ideal S1x2048x64 .f32) (k : Vec Ideal S1x1024x64 .bf16) (r : Fin 2048) (j : Fin 1024) :
    k0_pay8 (F := Ideal) q k (ix2 r j) = sc q k r j := by
  unfold k0_pay8
  refine (Cert.Lib.AttentionDots.matmul_trhs dot_S2048x64_S1024x64_S2048x1024_1_1_0_0_n_n rfl rfl rfl rfl rfl rfl none _ _ r j).trans ?_
  refine Finset.sum_congr rfl fun d _ => ?_
  rw [truncf_apply, mulf_apply, broadcast_apply, shapeCast_1ab_ab_apply, shapeCast_1ab_ab_apply, scale_eq]

/-! ## The pointwise exponential at an index, and the two literal words -/

theorem exp_apply {s : Shape} {φ : FTy} (x : FVec Ideal s φ) (i : s.Idx) : exp x i = Ideal.exp (x i) := rfl

/-- The word 0xFF800000 denotes minus infinity. -/
theorem ofBits_neg_inf : Ideal.ofBits .f32 0xFF800000#32 = (⊥ : EReal) := by
  simp [Ideal.ofBits, Ideal.ieee]

/-! ## The new running maximum -/

theorem pay9_apply (q : Vec Ideal S1x2048x64 .f32) (k : Vec Ideal S1x1024x64 .bf16) (mp : Vec Ideal S2048x1 .f32) (r : Fin 2048) :
    k0_pay9 (F := Ideal) q k mp (ix2 r 0)
      = max (mp (ix2 r 0)) ((Finset.univ : Finset (Fin 1024)).fold max ⊥ fun j => sc q k r j) := by
  unfold k0_pay9
  rw [maximumf_apply, Cert.Lib.KeepdimsColumn.vecToCol_apply]
  refine congrArg (max (mp (ix2 r 0))) ?_
  refine (Cert.Lib.LastAxis.laneMax_last2 (k0_pay8 (F := Ideal) q k) 0xFF800000#32 reduces_S2048x1024_S2048 (.inl rfl) rfl r).trans ?_
  rw [Ideal.ofBits_def, ofBits_neg_inf]
  exact congrArg (fun f => Finset.fold max (⊥ : EReal) f (Finset.univ : Finset (Fin 1024))) (funext fun j => pay8_apply q k r j)

theorem pay2_apply (x : FVec Ideal S2048x1 .f32) (r : Fin 2048) : k0_pay2 (F := Ideal) x (ix2 r 0) = x (ix2 r 0) := by
  unfold k0_pay2
  rw [shapeCast_self]

/-! ## The exponentials of the step -/

/-- e^{s (r, j) − m' r}: the weight of key j in row r. -/
theorem pay10_apply (q : Vec Ideal S1x2048x64 .f32) (k : Vec Ideal S1x1024x64 .bf16) (mp : Vec Ideal S2048x1 .f32) (r : Fin 2048) (j : Fin 1024) :
    k0_pay10 (F := Ideal) q k mp (ix2 r j) = Ideal.exp (sc q k r j - k0_pay9 (F := Ideal) q k mp (ix2 r 0)) := by
  unfold k0_pay10
  rw [exp_apply, subf_apply, pay8_apply, Cert.Lib.KeepdimsColumn.colToMat_apply]

/-- e^{m r − m' r}: the factor that rescales the carried sums of row r. -/
theorem pay11_apply (q : Vec Ideal S1x2048x64 .f32) (k : Vec Ideal S1x1024x64 .bf16) (mp : Vec Ideal S2048x1 .f32) (r : Fin 2048) :
    k0_pay11 (F := Ideal) q k mp (ix2 r 0) = Ideal.exp (mp (ix2 r 0) - k0_pay9 (F := Ideal) q k mp (ix2 r 0)) := by
  unfold k0_pay11
  rw [exp_apply, subf_apply]

theorem pay13_apply (q : Vec Ideal S1x2048x64 .f32) (k : Vec Ideal S1x1024x64 .bf16) (mp : Vec Ideal S2048x1 .f32) (r : Fin 2048) (e : Fin 64) :
    k0_pay13 (F := Ideal) q k mp (ix2 r e) = Ideal.exp (mp (ix2 r 0) - k0_pay9 (F := Ideal) q k mp (ix2 r 0)) := by
  unfold k0_pay13
  rw [Cert.Lib.KeepdimsColumn.colToMat_apply, pay11_apply]

theorem pay7_apply (v : Vec Ideal S1x1024x64 .bf16) (j : Fin 1024) (e : Fin 64) :
    k0_pay7 (F := Ideal) v (ix2 j e) = v (ix3 0 j e) := by
  unfold k0_pay7
  rw [shapeCast_1ab_ab_apply]

/-! ## The new running denominator -/

theorem pay12_apply (q : Vec Ideal S1x2048x64 .f32) (k : Vec Ideal S1x1024x64 .bf16) (mp lp : Vec Ideal S2048x1 .f32) (r : Fin 2048) :
    k0_pay12 (F := Ideal) q k mp lp (ix2 r 0)
      = Ideal.exp (mp (ix2 r 0) - k0_pay9 (F := Ideal) q k mp (ix2 r 0)) * lp (ix2 r 0)
        + ∑ j : Fin 1024, Ideal.exp (sc q k r j - k0_pay9 (F := Ideal) q k mp (ix2 r 0)) := by
  unfold k0_pay12
  rw [shapeCast_self, addf_apply, mulf_apply, pay11_apply, Cert.Lib.KeepdimsColumn.vecToCol_apply]
  refine congrArg (Ideal.exp (mp (ix2 r 0) - k0_pay9 (F := Ideal) q k mp (ix2 r 0)) * lp (ix2 r 0) + ·) ?_
  refine (Cert.Lib.LastAxis.laneSum_last2 (k0_pay10 (F := Ideal) q k mp) 0x00000000#32 reduces_S2048x1024_S2048 (.inl rfl) rfl r).trans ?_
  exact Finset.sum_congr rfl fun j _ => pay10_apply q k mp r j

/-! ## A rank-2 product contracted on the left operand's last and the right operand's first axis -/

theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- A matmul [A,K] × [K,B] → [A,B] into the zero accumulator, read at (p, q): the sum over k of L (p, k) * R (k, q). -/
theorem matmul_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    matmul d prec lhs rhs (constant ⟨2, ![A, B]⟩ .f32 0x00000000#32) (ix2 p q) = ∑ k : Fin K, lhs (ix2 p k) * rhs (ix2 k q) := by
  obtain ⟨hr, hs, h⟩ := plain_idx d hlc hrc hln hrn hlb hrb
  refine (Ideal.matmul_constant_zero_apply d prec lhs rhs (ix2 p q)).trans ?_
  rw [← Equiv.sum_comp (contrEquiv1 d K hr hs).symm]
  exact Finset.sum_congr rfl fun k _ => by rw [(h p q k).1, (h p q k).2]

/-! ## The new running numerator -/

theorem pay1_apply (q : Vec Ideal S1x2048x64 .f32) (k : Vec Ideal S1x1024x64 .bf16) (v : Vec Ideal S1x1024x64 .bf16)
    (mp : Vec Ideal S2048x1 .f32) (ap : Vec Ideal S2048x64 .f32) (r : Fin 2048) (e : Fin 64) :
    k0_pay1 (F := Ideal) (k0_pay7 v) (k0_pay10 q k mp) ap (k0_pay13 q k mp) (ix2 r e)
      = Ideal.exp (mp (ix2 r 0) - k0_pay9 (F := Ideal) q k mp (ix2 r 0)) * ap (ix2 r e)
        + ∑ j : Fin 1024, Ideal.exp (sc q k r j - k0_pay9 (F := Ideal) q k mp (ix2 r 0)) * v (ix3 0 j e) := by
  unfold k0_pay1
  rw [shapeCast_self, addf_apply, mulf_apply, pay13_apply]
  refine congrArg (Ideal.exp (mp (ix2 r 0) - k0_pay9 (F := Ideal) q k mp (ix2 r 0)) * ap (ix2 r e) + ·) ?_
  refine (matmul_plain dot_S2048x1024_S1024x64_S2048x64_1_0_0_1_n_n rfl rfl rfl rfl rfl rfl none _ _ r e).trans ?_
  refine Finset.sum_congr rfl fun j _ => ?_
  rw [truncf_apply, pay10_apply, pay7_apply]

/-! ## The output after the last tile, and the state before the first -/

theorem pay3_apply (acc : Vec Ideal S2048x64 .f32) (l : Vec Ideal S2048x1 .f32) (r : Fin 2048) (e : Fin 64) :
    k0_pay3 (F := Ideal) acc l (ix3 0 r e) = Ideal.div (acc (ix2 r e)) (l (ix2 r 0)) := by
  unfold k0_pay3
  rw [shapeCast_ab_1ab_apply, divf_apply, Cert.Lib.KeepdimsColumn.colToMat_apply]

theorem pay4_apply (r : Fin 2048) : k0_pay4 (F := Ideal) (ix2 r 0) = ⊥ := by
  unfold k0_pay4
  rw [shapeCast_self, broadcast_apply]
  exact ofBits_neg_inf

theorem pay5_apply (r : Fin 2048) : k0_pay5 (F := Ideal) (ix2 r 0) = 0 := by
  unfold k0_pay5
  rw [shapeCast_self, broadcast_apply]
  exact Ideal.ofBits_zero_f32

theorem pay6_apply (r : Fin 2048) (e : Fin 64) : k0_pay6 (F := Ideal) (ix2 r e) = 0 := by
  unfold k0_pay6
  rw [shapeCast_self, broadcast_apply]
  exact Ideal.ofBits_zero_f32

end Cert.KernelIdeal.StepRead

end
-- ==== Proof.Pieces.lean ====
/-
  The piece lemmas of the idealized kernel's generated frame: what each control case of the body leaves in the three
  carried scratch arrays (the running row maximum, the running denominator, the running numerator) and, in the last
  case, in the output block, written as a composition of the body's pure payload terms applied to the loaded blocks.

  At every grid point the body loads the query block `x0`, the key block `x1`, the value block `x2` and the three
  carried arrays, and stores each carried array exactly once through the rectangle that covers it whole, at zero
  offsets. Hence what a case leaves in a carried array is the payload of that one covering store, and every load the
  payload reads is a load of a whole buffer, which returns the buffer's contents:

    * running maximum      m' = max(m, rowmax(scores))                      (payloads 2 and 9),
    * running denominator  l' = exp(m - m') * l + rowsum(exp(scores - m'))  (payload 12),
    * running numerator    a' = exp(m - m') * a + exp(scores - m') · V      (payloads 1, 7, 10, 13).

  Case A (the first key tile) first stores the initial values (−∞ for the maximum, 0 for the denominator and the
  numerator: payloads 4, 5, 6) and then reads them back, so each carried array has two covering stores, of which the
  later one decides the contents, and the carried values it reads are the initial values themselves. Cases B and C
  read what the point before left (`xs0`, `xs1`, `xs2`). Case C (the last key tile) also stores the quotient
  a' / l' (payload 3) into the output block, reading back the two arrays it has just stored.

  All ten equations hold for any float model `F`.
-/
import proofs.«168605_j77068893160143_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

/-- The offsets of a rank-2 whole-buffer rectangle are all zero. -/
theorem hz2 : (![0, 0] : Fin 2 → Nat) = fun _ => 0 := funext fun a => by fin_cases a <;> rfl

/-- The offsets of a rank-3 whole-buffer rectangle are all zero. -/
theorem hz3 : (![0, 0, 0] : Fin 3 → Nat) = fun _ => 0 := funext fun a => by fin_cases a <;> rfl

/-- Case A, running maximum: the later of the two covering stores wins, and the carried maximum it read is the initial −∞ block: m' = max(−∞, rowmax(scores)). -/
theorem sout0_A_0_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : cond0_0 i) (hc1 : ¬cond0_1 i)
    (x0 : Vec F S1x2048x64 .f32) (x1 : Vec F S1x1024x64 .bf16) (x2 : Vec F S1x1024x64 .bf16) :
    sout0_A_0 c i arg3 harg3 arg4 harg4 arg5 harg5 arg6 harg6 arg7 harg7 arg8 harg8 arg9 harg9 hc0 hc1 x0 x1 x2 = k0_pay2 (k0_pay9 x0 x1 k0_pay4) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3, View.readCov_unit_zero (S := S2048x1) _ hz2, View.readCov_unit_zero (S := S2048x64) _ hz2]

/-- Case A, running denominator: l' = exp(−∞ − m') * 0 + rowsum(exp(scores − m')), over the initial blocks. -/
theorem sout0_A_1_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : cond0_0 i) (hc1 : ¬cond0_1 i)
    (x0 : Vec F S1x2048x64 .f32) (x1 : Vec F S1x1024x64 .bf16) (x2 : Vec F S1x1024x64 .bf16) :
    sout0_A_1 c i arg3 harg3 arg4 harg4 arg5 harg5 arg6 harg6 arg7 harg7 arg8 harg8 arg9 harg9 hc0 hc1 x0 x1 x2 = k0_pay12 x0 x1 k0_pay4 k0_pay5 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3, View.readCov_unit_zero (S := S2048x1) _ hz2, View.readCov_unit_zero (S := S2048x64) _ hz2]

/-- Case A, running numerator: a' = exp(−∞ − m') * 0 + exp(scores − m') · V, over the initial blocks. -/
theorem sout0_A_2_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : cond0_0 i) (hc1 : ¬cond0_1 i)
    (x0 : Vec F S1x2048x64 .f32) (x1 : Vec F S1x1024x64 .bf16) (x2 : Vec F S1x1024x64 .bf16) :
    sout0_A_2 c i arg3 harg3 arg4 harg4 arg5 harg5 arg6 harg6 arg7 harg7 arg8 harg8 arg9 harg9 hc0 hc1 x0 x1 x2 = k0_pay1 (k0_pay7 x2) (k0_pay10 x0 x1 k0_pay4) k0_pay6 (k0_pay13 x0 x1 k0_pay4) := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x64) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3, View.readCov_unit_zero (S := S2048x1) _ hz2, View.readCov_unit_zero (S := S2048x64) _ hz2]

/-- Case B, running maximum: the one covering store's payload, m' = max(m, rowmax(scores)) over the carried maximum `xs0`. -/
theorem sout0_B_0_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : ¬cond0_1 i)
    (x0 : Vec F S1x2048x64 .f32) (x1 : Vec F S1x1024x64 .bf16) (x2 : Vec F S1x1024x64 .bf16) (xs0 : Vec F S2048x1 .f32) (xs1 : Vec F S2048x1 .f32) (xs2 : Vec F S2048x64 .f32) :
    sout0_B_0 c i arg3 harg3 arg4 harg4 arg5 harg5 arg6 harg6 arg7 harg7 arg8 harg8 arg9 harg9 hc0 hc1 x0 x1 x2 xs0 xs1 xs2 = k0_pay2 (k0_pay9 x0 x1 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x1) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3]

/-- Case B, running denominator: l' = exp(m − m') * l + rowsum(exp(scores − m')) over the carried `xs0`, `xs1`. -/
theorem sout0_B_1_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : ¬cond0_1 i)
    (x0 : Vec F S1x2048x64 .f32) (x1 : Vec F S1x1024x64 .bf16) (x2 : Vec F S1x1024x64 .bf16) (xs0 : Vec F S2048x1 .f32) (xs1 : Vec F S2048x1 .f32) (xs2 : Vec F S2048x64 .f32) :
    sout0_B_1 c i arg3 harg3 arg4 harg4 arg5 harg5 arg6 harg6 arg7 harg7 arg8 harg8 arg9 harg9 hc0 hc1 x0 x1 x2 xs0 xs1 xs2 = k0_pay12 x0 x1 xs0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x1) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3]

/-- Case B, running numerator: a' = exp(m − m') * a + exp(scores − m') · V over the carried `xs0`, `xs2`. -/
theorem sout0_B_2_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : ¬cond0_1 i)
    (x0 : Vec F S1x2048x64 .f32) (x1 : Vec F S1x1024x64 .bf16) (x2 : Vec F S1x1024x64 .bf16) (xs0 : Vec F S2048x1 .f32) (xs1 : Vec F S2048x1 .f32) (xs2 : Vec F S2048x64 .f32) :
    sout0_B_2 c i arg3 harg3 arg4 harg4 arg5 harg5 arg6 harg6 arg7 harg7 arg8 harg8 arg9 harg9 hc0 hc1 x0 x1 x2 xs0 xs1 xs2 = k0_pay1 (k0_pay7 x2) (k0_pay10 x0 x1 xs0) xs2 (k0_pay13 x0 x1 xs0) := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x64) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3]

/-- Case C, running maximum: as in case B. -/
theorem sout0_C_0_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : cond0_1 i)
    (x0 : Vec F S1x2048x64 .f32) (x1 : Vec F S1x1024x64 .bf16) (x2 : Vec F S1x1024x64 .bf16) (xs0 : Vec F S2048x1 .f32) (xs1 : Vec F S2048x1 .f32) (xs2 : Vec F S2048x64 .f32) :
    sout0_C_0 c i arg3 harg3 arg4 harg4 arg5 harg5 arg6 harg6 arg7 harg7 arg8 harg8 arg9 harg9 hc0 hc1 x0 x1 x2 xs0 xs1 xs2 = k0_pay2 (k0_pay9 x0 x1 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x1) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3]

/-- Case C, running denominator: as in case B. -/
theorem sout0_C_1_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : cond0_1 i)
    (x0 : Vec F S1x2048x64 .f32) (x1 : Vec F S1x1024x64 .bf16) (x2 : Vec F S1x1024x64 .bf16) (xs0 : Vec F S2048x1 .f32) (xs1 : Vec F S2048x1 .f32) (xs2 : Vec F S2048x64 .f32) :
    sout0_C_1 c i arg3 harg3 arg4 harg4 arg5 harg5 arg6 harg6 arg7 harg7 arg8 harg8 arg9 harg9 hc0 hc1 x0 x1 x2 xs0 xs1 xs2 = k0_pay12 x0 x1 xs0 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x1) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3]

/-- Case C, running numerator: as in case B. -/
theorem sout0_C_2_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : cond0_1 i)
    (x0 : Vec F S1x2048x64 .f32) (x1 : Vec F S1x1024x64 .bf16) (x2 : Vec F S1x1024x64 .bf16) (xs0 : Vec F S2048x1 .f32) (xs1 : Vec F S2048x1 .f32) (xs2 : Vec F S2048x64 .f32) :
    sout0_C_2 c i arg3 harg3 arg4 harg4 arg5 harg5 arg6 harg6 arg7 harg7 arg8 harg8 arg9 harg9 hc0 hc1 x0 x1 x2 xs0 xs1 xs2 = k0_pay1 (k0_pay7 x2) (k0_pay10 x0 x1 xs0) xs2 (k0_pay13 x0 x1 xs0) := by
  unfold sout0_C_2
  rw [View.read_writes_eq_canon _ _ _ (scover0_C_2 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x64) hz2]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3]

/-- Case C, the output block: the one covering store's payload, the quotient a' / l' of the numerator and the
    denominator this same point has just stored (each read back through its own covering store). -/
theorem out0_C_3_eq (c : Dev nD) (i : grid0.Coords) (arg3 : Memref sig .tc .vmem S1x2048x64 .f32) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x2048x64 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x64 .f32) (harg9 : arg9.IsWhole) (hc0 : ¬cond0_0 i) (hc1 : cond0_1 i)
    (x0 : Vec F S1x2048x64 .f32) (x1 : Vec F S1x1024x64 .bf16) (x2 : Vec F S1x1024x64 .bf16) (xs0 : Vec F S2048x1 .f32) (xs1 : Vec F S2048x1 .f32) (xs2 : Vec F S2048x64 .f32) :
    out0_C_3 c i arg3 harg3 arg4 harg4 arg5 harg5 arg6 harg6 arg7 harg7 arg8 harg8 arg9 harg9 hc0 hc1 x0 x1 x2 xs0 xs1 xs2 = k0_pay3 (k0_pay1 (k0_pay7 x2) (k0_pay10 x0 x1 xs0) xs2 (k0_pay13 x0 x1 xs0)) (k0_pay12 x0 x1 xs0 xs1) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1x2048x64) hz3]
  simp only [View.readAt_eq_ld, harg3.read_unread, harg4.read_unread, harg5.read_unread, harg6.read_unread, harg7.read_unread, harg8.read_unread, harg9.read_unread, View.ld_unit_zero (S := S2048x1) hz2, View.ld_unit_zero (S := S2048x64) hz2, View.ld_unit_zero (S := S1x2048x64) hz3, View.ld_unit_zero (S := S1x1024x64) hz3, View.readCov_unit_zero (S := S2048x1) _ hz2, View.readCov_unit_zero (S := S2048x64) _ hz2]

end Cert.KernelIdeal.Pieces

end
-- ==== Proof.Invariant.lean ====
/-
  The online-softmax pass, point by point.

  At grid point t = 8·g + 4·(query tile) + (key tile k) the body folds key tile k into the carried state of every query
  row of the tile: the running maximum, the running denominator and, per value column, the running numerator.  After
  the point the state of row r (query position s = 2048·(query tile) + r of merged head g) satisfies the invariant of
  the specification for k + 1 tiles seen; the first key tile starts from (−∞, 0, 0), the later ones from what the point
  before left.  At the last key tile the output block holds numerator / denominator, which is the attention of the row.
-/
import proofs.«168605_j77068893160143_2_alg».proof.Proof.Gen.KernelIdeal.Frame
import proofs.«168605_j77068893160143_2_alg».proof.Proof.Blocks
import proofs.«168605_j77068893160143_2_alg».proof.Proof.KernelSpec
import proofs.«168605_j77068893160143_2_alg».proof.Proof.AttnAlgebra
import proofs.«168605_j77068893160143_2_alg».proof.Proof.StepRead
import proofs.«168605_j77068893160143_2_alg».proof.Proof.Pieces

noncomputable section

open scoped BigOperators

namespace Cert.KernelIdeal.Online

open Cert.KernelIdeal Cert.KernelIdeal.Gen Idealize.ShloMosaic Idealize.ShloMosaic.TcCoe Idealize.SL.Sem
open Idealize.ShloMosaic.ValueIdx Cert.KernelIdeal.StepRead Cert.KernelIdeal.Pieces Cert.Attn

/-- An extended real that is a real number is the coercion of its real part. -/
theorem coe_toReal (x : EReal) (h : ∃ r : ℝ, x = (r : EReal)) : ((x.toReal : ℝ) : EReal) = x := by
  obtain ⟨r, rfl⟩ := h
  rw [EReal.toReal_coe]

/-- The scaled score of a block row against a block key, when both hold real numbers. -/
theorem sc_real (x0 : Vec Ideal S1x2048x64 .f32) (x1 : Vec Ideal S1x1024x64 .bf16) (r : Fin 2048) (j : Fin 1024)
    (Q K : Fin 64 → ℝ) (h0 : ∀ d : Fin 64, x0 (ix3 0 r d) = ((Q d : ℝ) : EReal))
    (h1 : ∀ d : Fin 64, x1 (ix3 0 j d) = ((K d : ℝ) : EReal)) : sc x0 x1 r j = ((scoreR Q K : ℝ) : EReal) := by
  unfold sc
  simp only [h0, h1]
  exact score_kernel Q K

/-- ONE STEP of the pass at row r and column e: if the key block's scores and values are the reals of key tile n and
    the carried state satisfies the invariant for n tiles, the new state satisfies it for n + 1. -/
theorem step_inv (x0 : Vec Ideal S1x2048x64 .f32) (x1 x2 : Vec Ideal S1x1024x64 .bf16)
    (xs0 xs1 : Vec Ideal S2048x1 .f32) (xs2 : Vec Ideal S2048x64 .f32) (S W : ℕ → ℝ) (n : ℕ) (r : Fin 2048) (e : Fin 64)
    (hs : ∀ j : Fin 1024, sc x0 x1 r j = ((S (1024 * n + j.val) : ℝ) : EReal))
    (hv : ∀ j : Fin 1024, x2 (ix3 0 j e) = ((W (1024 * n + j.val) : ℝ) : EReal))
    (h : Inv S W n (xs0 (ix2 r 0)) (xs1 (ix2 r 0)) (xs2 (ix2 r e))) :
    Inv S W (n + 1) (k0_pay2 (F := Ideal) (k0_pay9 x0 x1 xs0) (ix2 r 0)) (k0_pay12 (F := Ideal) x0 x1 xs0 xs1 (ix2 r 0))
      (k0_pay1 (F := Ideal) (k0_pay7 x2) (k0_pay10 x0 x1 xs0) xs2 (k0_pay13 x0 x1 xs0) (ix2 r e)) := by
  have hM : k0_pay9 (F := Ideal) x0 x1 xs0 (ix2 r 0) = newM S n (xs0 (ix2 r 0)) := by
    rw [pay9_apply]
    unfold newM tileMax
    simp only [hs]
  rw [pay2_apply, pay12_apply, pay1_apply, hM]
  simp only [hs, hv]
  exact inv_step S W n _ _ _ h

variable (m : (ℓ : Loc nD τ sig) → Buf (Elt Ideal) ℓ) (c : Dev nD)

/-- The scores the blocks at point t give row r against local key j are the scores of query (g, s) at key position
    1024·k + j, k the point's key tile. -/
theorem scores_at (hR : Spec.RealArrays m c) (t : Fin cfg0.N) (r : Fin 2048) (g : Fin 16) (s : Fin 4096)
    (hg : g.val = t.val / 8) (hs : s.val = 2048 * ((t.val / 4) % 2) + r.val) (k : ℕ) (hk : t.val % 4 = k) (j : Fin 1024) :
    sc (iblk m c 0 t) (iblk m c 1 t) r j = ((Spec.Srow m c g s (1024 * k + j.val) : ℝ) : EReal) := by
  have hj : j.val < 1024 := j.isLt
  have hp : 1024 * k + j.val < 4096 := by omega
  refine (sc_real (iblk m c 0 t) (iblk m c 1 t) r j (Spec.Qr m c g s) (Spec.Kr m c g ⟨1024 * k + j.val, hp⟩)
    (fun d => ?_) (fun d => ?_)).trans ?_
  · exact (Blocks.qblk_apply m c t r d g s hg hs).trans (coe_toReal _ (hR.1 _)).symm
  · exact (Blocks.kblk_apply m c t j d g ⟨1024 * k + j.val, hp⟩ hg (by show 1024 * k + j.val = 1024 * (t.val % 4) + j.val; rw [hk])).trans
      (coe_toReal _ (hR.2.1 _)).symm
  · unfold Spec.Srow
    rw [dif_pos hp]

/-- The value block at point t, row j, column e, is the value column at key position 1024·k + j. -/
theorem values_at (hR : Spec.RealArrays m c) (t : Fin cfg0.N) (e : Fin 64) (g : Fin 16)
    (hg : g.val = t.val / 8) (k : ℕ) (hk : t.val % 4 = k) (j : Fin 1024) :
    (iblk m c 2 t : Vec Ideal S1x1024x64 .bf16) (ix3 0 j e) = ((Spec.Wcol m c g e (1024 * k + j.val) : ℝ) : EReal) := by
  have hj : j.val < 1024 := j.isLt
  have hp : 1024 * k + j.val < 4096 := by omega
  refine ((Blocks.vblk_apply m c t j e g ⟨1024 * k + j.val, hp⟩ hg (by show 1024 * k + j.val = 1024 * (t.val % 4) + j.val; rw [hk])).trans
    (coe_toReal _ (hR.2.2 _)).symm).trans ?_
  unfold Spec.Wcol
  rw [dif_pos hp]
  rfl

/-- The state after a point of the FIRST key tile. -/
theorem inv_A (hR : Spec.RealArrays m c) (t : Fin cfg0.N) (h0 : t.val % 4 = 0) (h1 : ¬t.val % 4 = 3) (r : Fin 2048) (e : Fin 64)
    (g : Fin 16) (s : Fin 4096) (hg : g.val = t.val / 8) (hs : s.val = 2048 * ((t.val / 4) % 2) + r.val) :
    Inv (Spec.Srow m c g s) (Spec.Wcol m c g e) (0 + 1) ((outsAt0 m c t.val t.isLt).2.1 (ix2 r 0))
      ((outsAt0 m c t.val t.isLt).2.2.1 (ix2 r 0)) ((outsAt0 m c t.val t.isLt).2.2.2 (ix2 r e)) := by
  rw [outsAt0_A m c t h0 h1]
  dsimp only
  rw [sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)]
  refine step_inv (iblk m c 0 t) (iblk m c 1 t) (iblk m c 2 t) (k0_pay4 (F := Ideal)) (k0_pay5 (F := Ideal)) (k0_pay6 (F := Ideal))
    (Spec.Srow m c g s) (Spec.Wcol m c g e) 0 r e (scores_at m c hR t r g s hg hs 0 h0) (values_at m c hR t e g hg 0 h0) ?_
  rw [pay4_apply, pay5_apply, pay6_apply]
  exact Cert.Attn.inv_zero _ _

/-- The state after a point of a MIDDLE key tile, from the state the point before left. -/
theorem inv_B (hR : Spec.RealArrays m c) (t : Fin cfg0.N) (h0 : ¬t.val % 4 = 0) (h1 : ¬t.val % 4 = 3) (r : Fin 2048) (e : Fin 64)
    (g : Fin 16) (s : Fin 4096) (hg : g.val = t.val / 8) (hs : s.val = 2048 * ((t.val / 4) % 2) + r.val)
    (ih : Inv (Spec.Srow m c g s) (Spec.Wcol m c g e) (t.val % 4)
      ((outsAt0 m c (t.val - 1) (Nat.lt_of_le_of_lt (Nat.sub_le _ _) t.isLt)).2.1 (ix2 r 0))
      ((outsAt0 m c (t.val - 1) (Nat.lt_of_le_of_lt (Nat.sub_le _ _) t.isLt)).2.2.1 (ix2 r 0))
      ((outsAt0 m c (t.val - 1) (Nat.lt_of_le_of_lt (Nat.sub_le _ _) t.isLt)).2.2.2 (ix2 r e))) :
    Inv (Spec.Srow m c g s) (Spec.Wcol m c g e) (t.val % 4 + 1) ((outsAt0 m c t.val t.isLt).2.1 (ix2 r 0))
      ((outsAt0 m c t.val t.isLt).2.2.1 (ix2 r 0)) ((outsAt0 m c t.val t.isLt).2.2.2 (ix2 r e)) := by
  rw [outsAt0_B m c t h0 h1]
  dsimp only
  rw [sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact step_inv (iblk m c 0 t) (iblk m c 1 t) (iblk m c 2 t) _ _ _
    (Spec.Srow m c g s) (Spec.Wcol m c g e) (t.val % 4) r e (scores_at m c hR t r g s hg hs _ rfl) (values_at m c hR t e g hg _ rfl) ih

/-- The state after a point of the LAST key tile, from the state the point before left. -/
theorem inv_C (hR : Spec.RealArrays m c) (t : Fin cfg0.N) (h0 : ¬t.val % 4 = 0) (h1 : t.val % 4 = 3) (r : Fin 2048) (e : Fin 64)
    (g : Fin 16) (s : Fin 4096) (hg : g.val = t.val / 8) (hs : s.val = 2048 * ((t.val / 4) % 2) + r.val)
    (ih : Inv (Spec.Srow m c g s) (Spec.Wcol m c g e) (t.val % 4)
      ((outsAt0 m c (t.val - 1) (Nat.lt_of_le_of_lt (Nat.sub_le _ _) t.isLt)).2.1 (ix2 r 0))
      ((outsAt0 m c (t.val - 1) (Nat.lt_of_le_of_lt (Nat.sub_le _ _) t.isLt)).2.2.1 (ix2 r 0))
      ((outsAt0 m c (t.val - 1) (Nat.lt_of_le_of_lt (Nat.sub_le _ _) t.isLt)).2.2.2 (ix2 r e))) :
    Inv (Spec.Srow m c g s) (Spec.Wcol m c g e) (t.val % 4 + 1) ((outsAt0 m c t.val t.isLt).2.1 (ix2 r 0))
      ((outsAt0 m c t.val t.isLt).2.2.1 (ix2 r 0)) ((outsAt0 m c t.val t.isLt).2.2.2 (ix2 r e)) := by
  rw [outsAt0_C m c t h0 h1]
  dsimp only
  rw [sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact step_inv (iblk m c 0 t) (iblk m c 1 t) (iblk m c 2 t) _ _ _
    (Spec.Srow m c g s) (Spec.Wcol m c g e) (t.val % 4) r e (scores_at m c hR t r g s hg hs _ rfl) (values_at m c hR t e g hg _ rfl) ih

/-- THE INVARIANT at every point, by induction on the point: after point n the state of row r, column e, satisfies the
    invariant for (n % 4) + 1 key tiles of query (n / 8, 2048·((n / 4) % 2) + r). -/
theorem state_inv (hR : Spec.RealArrays m c) : ∀ (n : ℕ) (hn : n < cfg0.N) (r : Fin 2048) (e : Fin 64) (g : Fin 16) (s : Fin 4096),
    g.val = n / 8 → s.val = 2048 * ((n / 4) % 2) + r.val →
    Inv (Spec.Srow m c g s) (Spec.Wcol m c g e) (n % 4 + 1) ((outsAt0 m c n hn).2.1 (ix2 r 0))
      ((outsAt0 m c n hn).2.2.1 (ix2 r 0)) ((outsAt0 m c n hn).2.2.2 (ix2 r e)) := by
  intro n
  induction n using Nat.strong_induction_on with
  | _ n ih =>
    intro hn r e g s hg hs
    by_cases h0 : n % 4 = 0
    · have h1 : ¬n % 4 = 3 := by omega
      have e1 : n % 4 + 1 = 0 + 1 := by omega
      rw [e1]
      exact inv_A m c hR ⟨n, hn⟩ h0 h1 r e g s hg hs
    · have hlt : n - 1 < n := by omega
      have hn' : n - 1 < cfg0.N := Nat.lt_of_le_of_lt (Nat.sub_le _ _) hn
      have ihp := ih (n - 1) hlt hn' r e g s (by omega) (by omega)
      have e1 : (n - 1) % 4 + 1 = n % 4 := by omega
      rw [e1] at ihp
      by_cases h1 : n % 4 = 3
      · exact inv_C m c hR ⟨n, hn⟩ h0 h1 r e g s hg hs ihp
      · exact inv_B m c hR ⟨n, hn⟩ h0 h1 r e g s hg hs ihp

/-- THE OUTPUT BLOCK at a point of the last key tile: row r, column e, is the attention of query row (g, s) over
    column e of merged head g's values. -/
theorem out_block (hR : Spec.RealArrays m c) (t : Fin cfg0.N) (ht : t.val % 4 = 3) (r : Fin 2048) (e : Fin 64)
    (g : Fin 16) (s : Fin 4096) (hg : g.val = t.val / 8) (hs : s.val = 2048 * ((t.val / 4) % 2) + r.val) :
    ((outsAt0 m c t.val t.isLt).1 : Vec Ideal S1x2048x64 .f32) (ix3 0 r e) = Spec.G6fun m c g s e := by
  have h0 : ¬t.val % 4 = 0 := by omega
  have h1 : t.val % 4 = 3 := ht
  have hst := state_inv m c hR t.val t.isLt r e g s hg hs
  have e4 : t.val % 4 + 1 = 4 := by omega
  rw [e4] at hst
  have hfin := inv_final _ _ _ _ _ hst
  rw [outsAt0_C m c t h0 h1] at hfin ⊢
  dsimp only at hfin ⊢
  rw [sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2] at hfin
  rw [out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, pay3_apply]
  exact hfin

end Cert.KernelIdeal.Online

end
-- ==== Proof.KernelFinal.lean ====
/-
  From the blocks the kernel writes back to its result array, and the kernel's run.

  The region's result array is [16, 4096, 64] (merged head g, position s, column e).  Its window's block at grid
  point t is rows 2048·((t / 4) % 2) … + 2047 of merged head t / 8, all 64 columns, and the block is written back
  at the points t ≡ 3 (mod 4), where the pass over the four key tiles of that query tile ends.  What is written
  back there is the attention of those 2048 query rows; the 32 write-backs tile the array, so the array ends
  holding the attention of every query row.  One host operation follows the region: the result array reshaped
  to [2, 8, 4096, 64].
-/
import proofs.«168605_j77068893160143_2_alg».proof.Proof.Gen.KernelIdeal.Frame
import proofs.«168605_j77068893160143_2_alg».proof.Proof.KernelSpec
import proofs.«168605_j77068893160143_2_alg».proof.Proof.Blocks
import proofs.«168605_j77068893160143_2_alg».proof.Proof.Invariant
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The grid has 128 points. -/
theorem N_eq : cfg0.N = 128 := N_0

/-! ## What a write-back writes -/

/-- WHAT POINT t WRITES BACK, at a point t ≡ 3 (mod 4): rows 2048·((t / 4) % 2) + r of merged head t / 8 of the
    attention result, that is, the result array read through the window's block at t. -/
theorem flushed_eq (c : Dev nD) (hR : Spec.RealArrays m c) (t : Fin cfg0.N) (hf : (cfg0.win 3).flush t = true) :
    (dats m 0 c).flushed 3 t = ((cfg0.win 3).blk t).view.read (Elt Ideal) (Spec.G6 m c) := by
  have ht : t.val % 4 = 3 := (flush0_3 t).mp hf
  have hN : t.val < 128 := lt_of_lt_of_eq t.isLt N_eq
  obtain ⟨h0, h1, h2⟩ := Blocks.idx_o t
  show (cfg0.win 3).cut (grid0.coords t) ((dats m 0 c).after 3 t) = _
  rw [after0_3]
  funext y
  have y0 : (y 0).val < 1 := (y 0).isLt
  have y1 : (y 1).val < 2048 := (y 1).isLt
  have y2 : (y 2).val < 64 := (y 2).isLt
  rw [View.read_apply]
  have hl : (cfg0.win 3).cut (grid0.coords t) (outsAt0 m c t.val t.isLt).1 y
      = ((outsAt0 m c t.val t.isLt).1 : Vec Ideal S1x2048x64 .f32) (ix3 (0 : Fin 1) (⟨(y 1).val, y1⟩ : Fin 2048) (⟨(y 2).val, y2⟩ : Fin 64)) :=
    congrArg ((outsAt0 m c t.val t.isLt).1 : Vec Ideal S1x2048x64 .f32) (funext fun a => Fin.ext (by
      match a with
      | ⟨0, _⟩ => show (y 0).val = 0; omega
      | ⟨1, _⟩ => rfl
      | ⟨2, _⟩ => rfl))
  have hr : ((cfg0.win 3).blk t).view.emb y
      = ix3 (⟨t.val / 8, by omega⟩ : Fin 16) (⟨2048 * ((t.val / 4) % 2) + (y 1).val, by omega⟩ : Fin 4096) (⟨(y 2).val, y2⟩ : Fin 64) :=
    funext fun a => Fin.ext (by
      match a with
      | ⟨0, _⟩ => show win0_3.index t 0 * 1 + 1 * (y 0).val = t.val / 8; rw [h0]; omega
      | ⟨1, _⟩ => show win0_3.index t 1 * 2048 + 1 * (y 1).val = 2048 * ((t.val / 4) % 2) + (y 1).val; rw [h1]; omega
      | ⟨2, _⟩ => show win0_3.index t 2 * 64 + 1 * (y 2).val = (y 2).val; rw [h2]; omega)
  rw [hl, hr, Spec.G6_apply]
  exact Online.out_block m c hR t ht _ _ _ _ rfl rfl

/-! ## The write-backs tile the array -/

/-- An index of the result array is in point t's block iff each coordinate is in the block's range on its axis. -/
theorem mem_blk (t : Fin cfg0.N) (i : S16x4096x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v6).slice (win0_3.rect t)).set ↔ _
  rw [View.set_slice_whole, Rect.mem_set_unit]
  exact Iff.rfl

/-- Every index (g, s, e) of the result array is in the block written back at point 8·g + 4·(s / 2048) + 3. -/
theorem cover (i : S16x4096x64.Idx) :
    ∃ t : Fin cfg0.N, (cfg0.win 3).flush t = true ∧ i ∈ ((cfg0.win 3).blk t).view.set := by
  have i0 : (i 0).val < 16 := (i 0).isLt
  have i1 : (i 1).val < 4096 := (i 1).isLt
  have i2 : (i 2).val < 64 := (i 2).isLt
  have hn : 8 * (i 0).val + 4 * ((i 1).val / 2048) + 3 < cfg0.N := by rw [N_eq]; omega
  obtain ⟨h0, h1, h2⟩ := Blocks.idx_o ⟨8 * (i 0).val + 4 * ((i 1).val / 2048) + 3, hn⟩
  dsimp only at h0 h1 h2
  refine ⟨⟨8 * (i 0).val + 4 * ((i 1).val / 2048) + 3, hn⟩, (flush0_3 _).mpr (by dsimp only; omega), ?_⟩
  rw [mem_blk]
  intro a
  match a with
  | ⟨0, _⟩ =>
    show win0_3.index ⟨8 * (i 0).val + 4 * ((i 1).val / 2048) + 3, hn⟩ 0 * 1 ≤ (i 0).val
      ∧ (i 0).val < win0_3.index ⟨8 * (i 0).val + 4 * ((i 1).val / 2048) + 3, hn⟩ 0 * 1 + 1
    rw [h0]; omega
  | ⟨1, _⟩ =>
    show win0_3.index ⟨8 * (i 0).val + 4 * ((i 1).val / 2048) + 3, hn⟩ 1 * 2048 ≤ (i 1).val
      ∧ (i 1).val < win0_3.index ⟨8 * (i 0).val + 4 * ((i 1).val / 2048) + 3, hn⟩ 1 * 2048 + 2048
    rw [h1]; omega
  | ⟨2, _⟩ =>
    show win0_3.index ⟨8 * (i 0).val + 4 * ((i 1).val / 2048) + 3, hn⟩ 2 * 64 ≤ (i 2).val
      ∧ (i 2).val < win0_3.index ⟨8 * (i 0).val + 4 * ((i 1).val / 2048) + 3, hn⟩ 2 * 64 + 64
    rw [h2]; omega

/-- THE RESULT ARRAY OF THE REGION after the run: the attention of every query row. -/
theorem final6 (c : Dev nD) (hR : Spec.RealArrays m c) : (dats m 0 c).arrAt 3 cfg0.N = Spec.G6 m c :=
  (dats m 0 c).arrAt_eq_of_cover 3 (Spec.G6 m c) (fun t hf => flushed_eq m c hR t hf) cover

/-! ## The host operation after the region, and the run -/

/-- The one operation after the region reshapes the region's result array: the program's result is the reshape to
    [2, 8, 4096, 64] of what the result array holds after the last write-back. -/
theorem tail_eq (c : Dev nD) : Pipeline.afterTail₀ cfgs (dats m) 0 (V0 m) [hostOps1] c main_v7
      = shapeCast S2x8x4096x64 ((dats m 0 c).arrAt 3 cfg0.N) shapeCasts_S16x4096x64_S2x8x4096x64 := by
  unfold Pipeline.afterTail₀
  show StableHlo.after hostOps1 _ (Proc.devRef .tc main_v7) = _
  after_results
  exact congrArg (fun A => shapeCast S2x8x4096x64 A shapeCasts_S16x4096x64_S2x8x4096x64)
    (Pipeline.withArrays_arr spec0 launch0.win.arr_inj c (V0 m c) (fun w => (dats m 0 c).arrAt w cfg0.N) 3)

/-- THE KERNEL'S RUN, READ: when the arrays the region finds hold real numbers, every run ends with the result at the
    reshape of the attention array and the three arguments unchanged. -/
theorem run (hR : ∀ c, Spec.RealArrays m c) : θ_run defs (onTc (τ := τ) (main (F := Ideal))) ⟨m, fun _ => 0, ρ⟩ fun r => ∀ c : Dev nD,
      r.2.mem ((c.tc : Thread nD τ).loc main_v7) = shapeCast S2x8x4096x64 (Spec.G6 m c) shapeCasts_S16x4096x64_S2x8x4096x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans
        ((tail_eq m c).trans (by rw [final6 m c (hR c)])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.lean ====
/-
  The certificate: a tiled attention kernel with an online softmax against plain softmax attention.

  The kernel walks the 4096 keys of each (batch, head) in four tiles of 1024 for every tile of 2048 queries, carrying a
  running maximum m, a running denominator l and a running numerator a per query row, and divides a by l after the last
  tile; the queries are scaled by the reciprocal of the reference's divisor before the first product, which the
  certificate's table names as exactly that reciprocal.  The reference computes
  softmax((Q·Kᵀ) / D)·V.  On the extended reals, for finite inputs, both are, at (b, h, i, e),
      (Σ_j e^{s j} · v j) / (Σ_j e^{s j}),   s j = (Σ_d q_d · k_{j,d}) / D:
  the kernel because its state keeps l·e^m and a·e^m equal to the two sums over the keys seen so far, whatever finite m
  is (the common factor e^m cancels in a / l), the reference because shifting every score by the row maximum multiplies
  numerator and denominator of the softmax by the same e^{-M}.  Finiteness of the inputs is what makes every score, every
  exponential and every sum a real number, so that products distribute over the sums.
-/
import proofs.«168605_j77068893160143_2_alg».proof.Defs
import proofs.«168605_j77068893160143_2_alg».proof.Proof.Gen.Kernel
import proofs.«168605_j77068893160143_2_alg».proof.Proof.Gen.Kernel.Skeleton
import proofs.«168605_j77068893160143_2_alg».proof.Proof.Gen.Kernel.Launch
import proofs.«168605_j77068893160143_2_alg».proof.Proof.Gen.Kernel.Points
import proofs.«168605_j77068893160143_2_alg».proof.Proof.Gen.Kernel.Frame
import proofs.«168605_j77068893160143_2_alg».proof.Proof.Gen.KernelIdeal
import proofs.«168605_j77068893160143_2_alg».proof.Proof.Gen.KernelIdeal.Skeleton
import proofs.«168605_j77068893160143_2_alg».proof.Proof.Gen.KernelIdeal.Launch
import proofs.«168605_j77068893160143_2_alg».proof.Proof.Gen.KernelIdeal.Points
import proofs.«168605_j77068893160143_2_alg».proof.Proof.Gen.KernelIdeal.Frame
import proofs.«168605_j77068893160143_2_alg».proof.Proof.Gen.ReferenceIdeal
import proofs.«168605_j77068893160143_2_alg».proof.Proof.Gen.ReferenceIdeal.Run
import proofs.«168605_j77068893160143_2_alg».proof.Proof.Gen.ReferenceIdeal.Read
import proofs.«168605_j77068893160143_2_alg».proof.Proof.Gen.Pre_finite_inputs
import proofs.«168605_j77068893160143_2_alg».proof.Proof.Finite
import proofs.«168605_j77068893160143_2_alg».proof.Proof.RefSide
import proofs.«168605_j77068893160143_2_alg».proof.Proof.KernelBridge
import proofs.«168605_j77068893160143_2_alg».proof.Proof.KernelFinal
import Idealize.ShloMosaic.Adequacy
import Idealize.ShloMosaic.Init

noncomputable section

namespace Cert.Proof

open Idealize.ShloMosaic Idealize.SL.Sem

/-- The three frames: the two kernels' are the generated frame runs, the reference's its generated run with the
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale literal is named the reciprocal of the reference's divisor, and the
    table gives the name that value. -/
theorem preserves : Cert.preserves_Kernel_KernelIdeal :=
  IdealRules.named_const.statement Cert.KernelIdeal.κ "fold_c_524288_11863283" .f32 0x3D3504F3#32
    ((524288 / 11863283 : ℝ) : EReal) rfl

/-- Both programs end with the attention array `Cert.Attn.G` of the (finite) arguments. -/
theorem algebraic : Cert.algebraic_KernelIdeal_ReferenceIdeal := by
  intro m ρ m' ρ' hpre hagree
  have hR : ∀ c, Cert.KernelIdeal.Spec.RealArrays m c := fun c => Cert.KernelIdeal.Bridge.real_arrays m c (hpre c)
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Bridge.G6_reshape m c), (h c).2⟩)
      (Cert.KernelIdeal.Final.run m ρ hR)
  · refine (θ_run Cert.ReferenceIdeal.defs _ _).mono (fun _ h c => ⟨(h c).1.trans ?_, (h c).2⟩)
      (Cert.ReferenceIdeal.Value.run (F := Ideal) m' ρ')
    obtain ⟨h0, h1, h2⟩ := Cert.Attn.Finite.reals_of_pre _ _ _ (hpre c)
    rw [(hagree c).1, (hagree c).2.1, (hagree c).2.2]
    exact (Cert.ReferenceIdeal.Read.val_main_v15_eq _ _ _).trans (Cert.Attn.RefSide.ref_eq _ _ _ h0 h1 h2)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
